-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128x1x4 : Shape := ⟨4, ![100000, 128, 1, 4]⟩
abbrev S3x128x1 : Shape := ⟨3, ![3, 128, 1]⟩
abbrev S3x1 : Shape := ⟨2, ![3, 1]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128x1x4 : S_.BroadcastsInDim S100000x128x1x4 (![] : Fin 0 → Fin S100000x128x1x4.rank)
  reducesTo_S100000x128x1x4_S_d0_1_2_3 : S100000x128x1x4.ReducesTo [0, 1, 2, 3] S_
  h_S_ : 0 < S_.numel
  bcast_S_S3x128x1 : S_.BroadcastsInDim S3x128x1 (![] : Fin 0 → Fin S3x128x1.rank)
  reducesTo_S3x128x1_S_d0_1_2 : S3x128x1.ReducesTo [0, 1, 2] S_
  bcast_S_S3x1 : S_.BroadcastsInDim S3x1 (![] : Fin 0 → Fin S3x1.rank)
  reducesTo_S3x1_S_d0_1 : S3x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128x1x4 .f32) (main_arg1 : FVec F S3x128x1 .f32) (main_arg2 : FVec F S3x1 .f32) (main_arg3 : FVec F S128x64 .f32) (main_arg4 : FVec F S64 .f32) (main_arg5 : FVec F S64x1 .f32) (main_arg6 : FVec F S1 .f32) : IVec S_ 1 :=
  let main_v0 : FVec F S100000x128x1x4 .f32 := Host.absf main_arg0
  let main_cst : FVec F S_ .f32 := constant S_ .f32 0x7F800000#32
  let main_v1 : FVec F S100000x128x1x4 .f32 := broadcastInDim S100000x128x1x4 ![] bcast_S_S100000x128x1x4 main_cst
  let main_v2 : IVec S100000x128x1x4 1 := cmpf .olt main_v0 main_v1
  let main_c : IVec S_ 1 := constantI S_ 1 1#1
  let main_v3 : IVec S_ 1 := (fun x v => Host.reduce IntOp.andi x v reducesTo_S100000x128x1x4_S_d0_1_2_3 h_S_) main_v2 main_c
  let main_v4 : FVec F S3x128x1 .f32 := Host.absf main_arg1
  let main_cst_0 : FVec F S_ .f32 := constant S_ .f32 0x7F800000#32
  let main_v5 : FVec F S3x128x1 .f32 := broadcastInDim S3x128x1 ![] bcast_S_S3x128x1 main_cst_0
  let main_v6 : IVec S3x128x1 1 := cmpf .olt main_v4 main_v5
  let main_c_1 : IVec S_ 1 := constantI S_ 1 1#1
  let main_v7 : IVec S_ 1 := (fun x v => Host.reduce IntOp.andi x v reducesTo_S3x128x1_S_d0_1_2 h_S_) main_v6 main_c_1
  let main_v8 : IVec S_ 1 := andi main_v3 main_v7
  let main_v9 : FVec F S3x1 .f32 := Host.absf main_arg2
  let main_cst_2 : FVec F S_ .f32 := constant S_ .f32 0x7F800000#32
  let main_v10 : FVec F S3x1 .f32 := broadcastInDim S3x1 ![] bcast_S_S3x1 main_cst_2
  let main_v11 : IVec S3x1 1 := cmpf .olt main_v9 main_v10
  let main_c_3 : IVec S_ 1 := constantI S_ 1 1#1
  let main_v12 : IVec S_ 1 := (fun x v => Host.reduce IntOp.andi x v reducesTo_S3x1_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S100000x128x1x4 : Shape := ⟨4, ![100000, 128, 1, 4]⟩
abbrev S3x128x1 : Shape := ⟨3, ![3, 128, 1]⟩
abbrev S3x1 : Shape := ⟨2, ![3, 1]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x512 : Shape := ⟨2, ![100000, 512]⟩
abbrev S_ : Shape := ⟨0, ![]⟩
abbrev S128x4 : Shape := ⟨2, ![128, 4]⟩
abbrev S3x128 : Shape := ⟨2, ![3, 128]⟩
abbrev S128x3 : Shape := ⟨2, ![128, 3]⟩
abbrev S128x4x64 : Shape := ⟨3, ![128, 4, 64]⟩
abbrev S512x1 : Shape := ⟨2, ![512, 1]⟩
abbrev S512x64 : Shape := ⟨2, ![512, 64]⟩
abbrev S512x65 : Shape := ⟨2, ![512, 65]⟩
abbrev S512x128 : Shape := ⟨2, ![512, 128]⟩
abbrev S1x1 : Shape := ⟨2, ![1, 1]⟩
abbrev S1x64 : Shape := ⟨2, ![1, 64]⟩
abbrev S100000 : Shape := ⟨1, ![100000]⟩
abbrev S2048x512 : Shape := ⟨2, ![2048, 512]⟩
abbrev S2048 : Shape := ⟨1, ![2048]⟩
abbrev S2048x128 : Shape := ⟨2, ![2048, 128]⟩
abbrev S2048x1 : Shape := ⟨2, ![2048, 1]⟩
abbrev S2048x64 : Shape := ⟨2, ![2048, 64]⟩

abbrev nBuf : Space → Nat
  | .hbm => 33
  | .vmem => 8
  | .smem => 0
  | _ => 0

abbrev bufTy : (tb : Table) → Fin (tcTables nBuf tb) → BufTy
  | .hbm, ⟨0, _⟩ => ⟨S100000x128x1x4, .f32⟩
  | .hbm, ⟨1, _⟩ => ⟨S3x128x1, .f32⟩
  | .hbm, ⟨2, _⟩ => ⟨S3x1, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100000x512, .f32⟩
  | .hbm, ⟨8, _⟩ => ⟨S_, .f32⟩
  | .hbm, ⟨9, _⟩ => ⟨S128x4, .f32⟩
  | .hbm, ⟨10, _⟩ => ⟨S3x128, .f32⟩
  | .hbm, ⟨11, _⟩ => ⟨S128x3, .f32⟩
  | .hbm, ⟨12, _⟩ => ⟨S_, .i32⟩
  | .hbm, ⟨13, _⟩ => ⟨S1, .i32⟩
  | .hbm, ⟨14, _⟩ => ⟨S128x4, .f32⟩
  | .hbm, ⟨15, _⟩ => ⟨S_, .f32⟩
  | .hbm, ⟨16, _⟩ => ⟨S128x4x64, .f32⟩
  | .hbm, ⟨17, _⟩ => ⟨S_, .i32⟩
  | .hbm, ⟨18, _⟩ => ⟨S1, .i32⟩
  | .hbm, ⟨19, _⟩ => ⟨S128x4x64, .f32⟩
  | .hbm, ⟨20, _⟩ => ⟨S512x1, .f32⟩
  | .hbm, ⟨21, _⟩ => ⟨S512x64, .f32⟩
  | .hbm, ⟨22, _⟩ => ⟨S512x65, .f32⟩
  | .hbm, ⟨23, _⟩ => ⟨S_, .i32⟩
  | .hbm, ⟨24, _⟩ => ⟨S_, .f32⟩
  | .hbm, ⟨25, _⟩ => ⟨S512x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x1, .f32⟩
  | .hbm, ⟨31, _⟩ => ⟨S1x64, .f32⟩
  | .hbm, ⟨32, _⟩ => ⟨S100000, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S2048, .f32⟩
  | .local _ .vmem, ⟨7, _⟩ => ⟨S2048, .f32⟩
  | _, _ => ⟨S100000x128x1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_c : Ref sig .tc := ⟨.hbm, 12, rfl⟩
abbrev main_call0_v4 : Ref sig .tc := ⟨.hbm, 13, rfl⟩
abbrev main_call0_v5 : Ref sig .tc := ⟨.hbm, 14, rfl⟩
abbrev main_call0_cst_0 : Ref sig .tc := ⟨.hbm, 15, rfl⟩
abbrev main_call0_v6 : Ref sig .tc := ⟨.hbm, 16, rfl⟩
abbrev main_call0_c_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_2 : Ref sig .tc := ⟨.hbm, 23, rfl⟩
abbrev main_call0_call0_v0 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S100000x128x1x4_S100000x512 : S100000x128x1x4.ShapeCasts S100000x512
  bcast_S_S128x4 : S_.BroadcastsInDim S128x4 (![] : Fin 0 → Fin S128x4.rank)
  shapeCasts_S3x128x1_S3x128 : S3x128x1.ShapeCasts S3x128
  transposes_S3x128_S128x3_1_0 : S3x128.Transposes [1, 0] S128x3
  bcast_S_S1 : S_.BroadcastsInDim S1 (![] : Fin 0 → Fin S1.rank)
  bcast_S_S128x4x64 : S_.BroadcastsInDim S128x4x64 (![] : Fin 0 → Fin S128x4x64.rank)
  shapeCasts_S128x4_S512x1 : S128x4.ShapeCasts S512x1
  shapeCasts_S128x4x64_S512x64 : S128x4x64.ShapeCasts S512x64
  concatenates_S512x1_S512x64_S512x65_d1 : Shape.Concatenates [S512x1, S512x64] S512x65 1
  pads_S512x65_S512x128_000_0630 : S512x65.Pads (![0, 0] : Fin 2 → Nat) ![0, 63] ![0, 0] S512x128
  h_S_ : 0 < S_.numel
  reducesTo_S3x1_S_d0_1 : S3x1.ReducesTo [0, 1] S_
  shapeCasts_S1_S_ : S1.ShapeCasts S_
  shapeCasts_S_S1x1 : S_.ShapeCasts S1x1
  shapeCasts_S64_S1x64 : S64.ShapeCasts S1x64
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S2048x128_o0_0_S2048x1 : S2048x128.Slices ![0, 0] S2048x1
  slices_S2048x128_o0_1_S2048x64 : S2048x128.Slices ![0, 1] S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S2048x1_S2048 : S2048x1.ShapeCasts S2048
  inb_S2048_S2048_0 : ∀ a, (![0] : Fin 1 → Nat) a + S2048.size a ≤ S2048.size a
  h_S2048 : 0 < S2048.numel
  scatter_S128x4_S1_S128x3_01_n_1_0_wf : ScatterDims.WF S128x4 S1 S128x3 [0, 1] [] [1] 0
  scatter_S128x4x64_S1_S128x64_01_1_1_0_wf : ScatterDims.WF S128x4x64 S1 S128x64 [0, 1] [1] [1] 0
  dot_S2048x512_S512x128_S2048x128_1_0_0_1_n_n_wf : DotDims.WF S2048x512 S512x128 S2048x128 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x512.size a < S100000x512.size a
  hwx0_0 : ∀ i : grid0.Coords, EltTy.bits .f32 = 32 ∨ (Rect.unit (s := S100000x512) (fun a => cc0_transform_0 i a * S2048x512.size a) (fun a => (Pipeline.Clip.of (cc0_transform_0 i a) (S2048x512.size a) (S100000x512.size a)).extent (S2048x512.size a)) fun a => Pipeline.Clip.inb (Pipeline.Clip.ok_of (hstart0_0 i a))).WholeWords (EltTy.packing .f32)
  hwxs0_0 : ∀ i : grid0.Coords, EltTy.bits .f32 = 32 ∨ (Rect.unit (s := S2048x512) (fun _ => 0) (fun a => (Pipeline.Clip.of (cc0_transform_0 i a) (S2048x512.size a) (S100000x512.size a)).extent (S2048x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2048.size a < S100000.size a
  hwx0_5 : ∀ i : grid0.Coords, EltTy.bits .f32 = 32 ∨ (Rect.unit (s := S100000) (fun a => cc0_transform_5 i a * S2048.size a) (fun a => (Pipeline.Clip.of (cc0_transform_5 i a) (S2048.size a) (S100000.size a)).extent (S2048.size a)) fun a => Pipeline.Clip.inb (Pipeline.Clip.ok_of (hstart0_5 i a))).WholeWords (EltTy.packing .f32)
  hwxs0_5 : ∀ i : grid0.Coords, EltTy.bits .f32 = 32 ∨ (Rect.unit (s := S2048) (fun _ => 0) (fun a => (Pipeline.Clip.of (cc0_transform_5 i a) (S2048.size a) (S100000.size a)).extent (S2048.size a)) fun a => (Nat.zero_add _).trans_le (Pipeline.Clip.extent_le (Pipeline.Clip.ok_of (hstart0_5 i a)))).WholeWords (EltTy.packing .f32)

variable [Facts₀]

def scatter_S128x4_S1_S128x3_01_n_1_0 : ScatterDims S128x4 S1 S128x3 where
  updateWindowDims := [0, 1]
  insertedWindowDims := []
  scatterDimsToOperandDims := [1]
  indexVectorDim := 0
  wf := scatter_S128x4_S1_S128x3_01_n_1_0_wf
def scatter_S128x4x64_S1_S128x64_01_1_1_0 : ScatterDims S128x4x64 S1 S128x64 where
  updateWindowDims := [0, 1]
  insertedWindowDims := [1]
  scatterDimsToOperandDims := [1]
  indexVectorDim := 0
  wf := scatter_S128x4x64_S1_S128x64_01_1_1_0_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpecClip (Memref.whole main_call0_v0) S2048x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v12) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v17) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v16) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v0) S2048.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128x1x4 : Shape := ⟨4, ![100000, 128, 1, 4]⟩
abbrev S3x128x1 : Shape := ⟨3, ![3, 128, 1]⟩
abbrev S3x1 : Shape := ⟨2, ![3, 1]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x128x4 : Shape := ⟨3, ![100000, 128, 4]⟩
abbrev S100000x128x1 : Shape := ⟨3, ![100000, 128, 1]⟩
abbrev S100000x128 : Shape := ⟨2, ![100000, 128]⟩
abbrev S1x128x1 : Shape := ⟨3, ![1, 128, 1]⟩
abbrev S128x1 : Shape := ⟨2, ![128, 1]⟩
abbrev S100000x1 : Shape := ⟨2, ![100000, 1]⟩
abbrev S1x1 : Shape := ⟨2, ![1, 1]⟩
abbrev S1x100000x1 : Shape := ⟨3, ![1, 100000, 1]⟩
abbrev S3x100000x1 : Shape := ⟨3, ![3, 100000, 1]⟩
abbrev S100000x64 : Shape := ⟨2, ![100000, 64]⟩
abbrev S1x64 : Shape := ⟨2, ![1, 64]⟩
abbrev S_ : Shape := ⟨0, ![]⟩
abbrev S4x100000x1 : Shape := ⟨3, ![4, 100000, 1]⟩
abbrev S100000 : Shape := ⟨1, ![100000]⟩

abbrev nBuf : Space → Nat
  | .hbm => 66
  | .vmem => 0
  | .smem => 0
  | _ => 0

abbrev bufTy : (tb : Table) → Fin (tcTables nBuf tb) → BufTy
  | .hbm, ⟨0, _⟩ => ⟨S100000x128x1x4, .f32⟩
  | .hbm, ⟨1, _⟩ => ⟨S3x128x1, .f32⟩
  | .hbm, ⟨2, _⟩ => ⟨S3x1, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100000x128x4, .f32⟩
  | .hbm, ⟨8, _⟩ => ⟨S100000x128x1, .f32⟩
  | .hbm, ⟨9, _⟩ => ⟨S100000x128, .f32⟩
  | .hbm, ⟨10, _⟩ => ⟨S1x128x1, .f32⟩
  | .hbm, ⟨11, _⟩ => ⟨S128x1, .f32⟩
  | .hbm, ⟨12, _⟩ => ⟨S100000x1, .f32⟩
  | .hbm, ⟨13, _⟩ => ⟨S1x1, .f32⟩
  | .hbm, ⟨14, _⟩ => ⟨S1, .f32⟩
  | .hbm, ⟨15, _⟩ => ⟨S1x1, .f32⟩
  | .hbm, ⟨16, _⟩ => ⟨S100000x1, .f32⟩
  | .hbm, ⟨17, _⟩ => ⟨S100000x1, .f32⟩
  | .hbm, ⟨18, _⟩ => ⟨S100000x128x1, .f32⟩
  | .hbm, ⟨19, _⟩ => ⟨S100000x128, .f32⟩
  | .hbm, ⟨20, _⟩ => ⟨S1x128x1, .f32⟩
  | .hbm, ⟨21, _⟩ => ⟨S128x1, .f32⟩
  | .hbm, ⟨22, _⟩ => ⟨S100000x1, .f32⟩
  | .hbm, ⟨23, _⟩ => ⟨S1x1, .f32⟩
  | .hbm, ⟨24, _⟩ => ⟨S1, .f32⟩
  | .hbm, ⟨25, _⟩ => ⟨S1x1, .f32⟩
  | .hbm, ⟨26, _⟩ => ⟨S100000x1, .f32⟩
  | .hbm, ⟨27, _⟩ => ⟨S100000x1, .f32⟩
  | .hbm, ⟨28, _⟩ => ⟨S100000x128x1, .f32⟩
  | .hbm, ⟨29, _⟩ => ⟨S100000x128, .f32⟩
  | .hbm, ⟨30, _⟩ => ⟨S1x128x1, .f32⟩
  | .hbm, ⟨31, _⟩ => ⟨S128x1, .f32⟩
  | .hbm, ⟨32, _⟩ => ⟨S100000x1, .f32⟩
  | .hbm, ⟨33, _⟩ => ⟨S1x1, .f32⟩
  | .hbm, ⟨34, _⟩ => ⟨S1, .f32⟩
  | .hbm, ⟨35, _⟩ => ⟨S1x1, .f32⟩
  | .hbm, ⟨36, _⟩ => ⟨S100000x1, .f32⟩
  | .hbm, ⟨37, _⟩ => ⟨S100000x1, .f32⟩
  | .hbm, ⟨38, _⟩ => ⟨S1x100000x1, .f32⟩
  | .hbm, ⟨39, _⟩ => ⟨S1x100000x1, .f32⟩
  | .hbm, ⟨40, _⟩ => ⟨S1x100000x1, .f32⟩
  | .hbm, ⟨41, _⟩ => ⟨S3x100000x1, .f32⟩
  | .hbm, ⟨42, _⟩ => ⟨S100000x128x1, .f32⟩
  | .hbm, ⟨43, _⟩ => ⟨S100000x128, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x1, .f32⟩
  | .hbm, ⟨58, _⟩ => ⟨S1x1, .f32⟩
  | .hbm, ⟨59, _⟩ => ⟨S100000x1, .f32⟩
  | .hbm, ⟨60, _⟩ => ⟨S100000x1, .f32⟩
  | .hbm, ⟨61, _⟩ => ⟨S1x100000x1, .f32⟩
  | .hbm, ⟨62, _⟩ => ⟨S4x100000x1, .f32⟩
  | .hbm, ⟨63, _⟩ => ⟨S_, .f32⟩
  | .hbm, ⟨64, _⟩ => ⟨S100000x1, .f32⟩
  | .hbm, ⟨65, _⟩ => ⟨S100000, .f32⟩
  | _, _ => ⟨S100000x128x1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst : Ref sig .tc := ⟨.hbm, 50, rfl⟩
abbrev main_v43 : Ref sig .tc := ⟨.hbm, 51, rfl⟩
abbrev main_v44 : Ref sig .tc := ⟨.hbm, 52, rfl⟩
abbrev main_cst_0 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_1 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]

class Facts₀ : Prop where
  shapeCasts_S100000x128x1x4_S100000x128x4 : S100000x128x1x4.ShapeCasts S100000x128x4
  slices_S100000x128x4_S100000x128x1_0_0_0 : S100000x128x4.Slices ![0, 0, 0] S100000x128x1
  shapeCasts_S100000x128x1_S100000x128 : S100000x128x1.ShapeCasts S100000x128
  slices_S3x128x1_S1x128x1_0_0_0 : S3x128x1.Slices ![0, 0, 0] S1x128x1
  shapeCasts_S1x128x1_S128x1 : S1x128x1.ShapeCasts S128x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  slices_S100000x128x4_S100000x128x1_0_0_1 : S100000x128x4.Slices ![0, 0, 1] S100000x128x1
  slices_S3x128x1_S1x128x1_1_0_0 : S3x128x1.Slices ![1, 0, 0] S1x128x1
  slices_S3x1_S1x1_1_0 : S3x1.Slices ![1, 0] S1x1
  slices_S100000x128x4_S100000x128x1_0_0_2 : S100000x128x4.Slices ![0, 0, 2] S100000x128x1
  slices_S3x128x1_S1x128x1_2_0_0 : S3x128x1.Slices ![2, 0, 0] S1x128x1
  slices_S3x1_S1x1_2_0 : S3x1.Slices ![2, 0] S1x1
  bcast_S100000x1_S1x100000x1_1_2 : S100000x1.BroadcastsInDim S1x100000x1 (![1, 2] : Fin 2 → Fin S1x100000x1.rank)
  concatenates_S1x100000x1_S1x100000x1_S1x100000x1_S3x100000x1_d0 : Shape.Concatenates [S1x100000x1, S1x100000x1, S1x100000x1] S3x100000x1 0
  slices_S100000x128x4_S100000x128x1_0_0_3 : S100000x128x4.Slices ![0, 0, 3] S100000x128x1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S3x100000x1_S1x100000x1_S4x100000x1_d0 : Shape.Concatenates [S3x100000x1, S1x100000x1] S4x100000x1 0
  reducesTo_S4x100000x1_S100000x1_d0 : S4x100000x1.ReducesTo [0] S100000x1
  h_S_ : 0 < S_.numel
  shapeCasts_S100000x1_S100000 : S100000x1.ShapeCasts S100000
  dot_S100000x128_S128x1_S100000x1_1_0_0_1_n_n_wf : DotDims.WF S100000x128 S128x1 S100000x1 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.BodyK.lean ====
/-
  The kernel body at one grid point, and the data the pipeline's frame run needs.

  A grid point `t` handles nodes `2048·t … 2048·t + 2047`. Its body loads the point's block of flattened
  features (2048 rows of 512), the combined weight (512 × 128), the hidden bias row, the second layer's column and
  the scalar bias, and stores one number per row: ONE whole-block store whose payload is a pure function of the five
  loads. That is all the body does to memory, so its triple is: the five input buffers unchanged, the output
  buffer at the payload of what the inputs hold.

  The last point's block overhangs the array (100000 = 48·2048 + 1696): its fetch fills only the first 1696 rows
  and the rest of the buffer holds words nothing names. The payload is computed from those rows too, but only rows
  inside the array are ever written back, and the pipeline's obligation for such a window speaks of those rows only.
  For the frame nothing about the output's contents is needed at all: the output window is handed over and taken
  back at contents left unnamed.
-/
import proofs.«173019_g88819923681710_cont_sun_c4_88_2_alg».proof.Proof.Gen.Kernel.Frame
import proofs.«173019_g88819923681710_cont_sun_c4_88_2_alg».proof.Proof.Gen.Kernel.Skeleton
import Idealize.ShloMosaic.Lib.Pipeline.Frame
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

theorem zeros1 : (![0] : Fin 1 → Nat) = fun _ => 0 := funext fun a => by fin_cases a; rfl
theorem zeros2 : (![0, 0] : Fin 2 → Nat) = fun _ => 0 := funext fun a => by fin_cases a <;> rfl

set_option maxHeartbeats 2000000 in
/-- The body on whole staging buffers: the five inputs at `x0 … x4`, the output at anything. It runs to the
    continuation with the inputs as they were and the output at the payload of `x0 … x4`: the loads are whole-buffer
    loads (they read the contents), the one store is a whole-buffer store (it leaves its payload). -/
theorem sound_kernel (c : Dev nD) (E : Set ℕ) (i : grid0.Coords)
    (arg1 : Memref sig .tc .vmem S2048x512 .f32) (harg1 : arg1.IsWhole) (arg2 : Memref sig .tc .vmem S512x128 .f32) (harg2 : arg2.IsWhole)
    (arg3 : Memref sig .tc .vmem S1x64 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S2048 .f32) (harg6 : arg6.IsWhole)
    (x0 : Vec F S2048x512 .f32) (x1 : Vec F S512x128 .f32) (x2 : Vec F S1x64 .f32) (x3 : Vec F S64x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1 x2 x3 x4)) -∗ K ⟨⟩))
      ⊢ wp frame (wpE (defs₀ (F := F)) Variants.none c none) E
          (cc0__readout_block i arg1 harg1 arg2 harg2 arg3 harg3 arg4 harg4 arg5 harg5 arg6 harg6) K := by
  simp only [cc0__readout_block_eq_skeleton]; unfold cc0__readout_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero zeros1 inb_S2048_S2048_0 y⟩),
    View.canon_unit_zero zeros1]
  simp only [View.readAt_eq_ld, View.ld_unit_zero (S := S2048x512) zeros2, View.ld_unit_zero (S := S512x128) zeros2,
    View.ld_unit_zero (S := S1x64) zeros2, View.ld_unit_zero (S := S64x1) zeros2, View.ld_unit_zero (S := S1x1) zeros2]

/-! ## The pipeline's proof data -/

variable (m : (ℓ : Loc nD τ sig) → Buf (Elt F) ℓ) (ρ : Dev nD → PrngReg)

/-- The point's block of features as a full 2048 × 512 buffer: the rows inside the array as the array has them,
    the rows past its end (at the last point only) filled with the zero word. -/
def feat (c : Dev nD) (t : Fin cfg0.N) : S2048x512.Idx → Elt F .f32 :=
  win0_0.fill (grid0.coords t) (fun _ => Scalar.ofBits .f32 0#32) (iblk m c 0 t)

/-- What the body leaves in the result's buffer at point `t`, when the features' buffer holds `feat`: the payload
    of the point's five blocks. -/
def res (c : Dev nD) (t : Fin cfg0.N) : S2048.Idx → Elt F .f32 :=
  k0_pay1 (feat m c t) (iblk m c 1 t) (iblk m c 2 t) (iblk m c 3 t) (iblk m c 4 t)

/-- The proof data of the one pipeline on core `c`: the arrays as the region finds them; after the body at point
    `t` each input's buffer at its block (the features' filled out past the array's end) and the result's at
    `res`; the frame's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => feat m c t
    | ⟨1, _⟩ => iblk m c 1 t
    | ⟨2, _⟩ => iblk m c 2 t
    | ⟨3, _⟩ => iblk m c 3 t
    | ⟨4, _⟩ => iblk m c 4 t
    | ⟨5, _⟩ => res m c t
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = feat m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = res m c t := by dsimp only [dats]

/-- The features' buffer is fetched at every point: the body finds the point's block on the rows inside the array
    and whatever the buffer held (`d`) past its end. -/
theorem before0_0 (c : Dev nD) (t : Fin cfg0.N) (d) :
    (dats m 0 c).before 0 t d = win0_0.fill (grid0.coords t) d (iblk m c 0 t) := by
  unfold Dat.before; rw [if_pos (fetch0_0 t)]; rfl

/-- The four small inputs are fetched once and found at their blocks at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation with the result's buffer left unnamed -/

/-- Of the six windows only the result's (window 5) is handed over and taken back at unnamed contents. -/
abbrev forgets : Fin cfg0.W → Bool :=
  fun | 0 => false | 1 => false | 2 => false | 3 => false | 4 => false | 5 => true | ⟨_ + 6, h⟩ => absurd h (Nat.not_lt.2 (Nat.le_add_left _ _))

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- The body at any point, the result's buffer unnamed: the inputs' buffers hold their blocks (the features' with
    anything past the array's end), so `sound_kernel` applies; each input is handed back as found — for the
    features, on the rows inside the array that is the block, which is all its obligation states. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%X5, H5⟩⟩
  rw [before0_0 m c t d0, before0_1 m c t d1, before0_2 m c t d2, before0_3 m c t d3, before0_4 m c t d4]
  iapply (sound_kernel c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (feat m c t) = iblk m c 0 t from win0_0.cut_fill _ _ _]
    iexact H0
  isplitl [H1]; · iexact H1
  isplitl [H2]; · iexact H2
  isplitl [H3]; · iexact H3
  isplitl [H4]; · iexact H4
  iexists _; iexact H5

/-- The library's body obligation, the result's window forgotten, at every point. -/
theorem body_obligationF (c : Dev nD) :
    BodyObligationLoose (dats (F := F) m 0 c) (defs₀ (F := F)) Variants.none () Set.univ forgets := fun t => by
  rw [bigSep_W0, bigSep_W0]
  exact sound_bodyF m c t

/-! ## The run and the frame -/

set_option backward.isDefEq.respectTransparency.types false in
/-- At the compiled mesh, for any values, from any memory with zero counters: every weakly fair execution of @main
    on the TensorCores terminates; every input array of the pipeline ends as the region found it, the result's
    array at contents left unnamed, and every other unscoped buffer as the region found it. -/
theorem run_frame : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligationF m c).toRForget)
    (hshare := fun c => ((dats m 0 c).toRForget forgets).share_full fun _ => rfl)
    (howed := fun _ _ => rfl) (V := V m) (hmain := hmain m Variants.none) (hA := A_eq m) (hΦ := fun _ _ => rfl)

/-- THE FRAME at any `F`: the program runs to the end without a fault and its seven argument arrays end as they
    began — six of them no window's array (unwritten by the region and by the host operations before it), the
    second layer's column an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Eq.mp (congrFun (((dats m 0 c).toRForget forgets).ArrAt_in 3 rfl _) _) ((h c).1 3)).trans
        ((A_eq m c 3).trans (V_main_arg5 m c)),
      ((h c).2 main_arg6 (Pipeline.mem_restRefs_of main_arg6 (by decide) (by decide))).trans (V_main_arg6 m c)⟩)
    (run_frame m ρ)

end Cert.Kernel.Body

end
-- ==== Proof.BodyI.lean ====
/-
  The kernel body at one grid point, and the data the pipeline's frame run needs.

  A grid point `t` handles nodes `2048·t … 2048·t + 2047`. Its body loads the point's block of flattened
  features (2048 rows of 512), the combined weight (512 × 128), the hidden bias row, the second layer's column and
  the scalar bias, and stores one number per row: ONE whole-block store whose payload is a pure function of the five
  loads. That is all the body does to memory, so its triple is: the five input buffers unchanged, the output
  buffer at the payload of what the inputs hold.

  The last point's block overhangs the array (100000 = 48·2048 + 1696): its fetch fills only the first 1696 rows
  and the rest of the buffer holds words nothing names. The payload is computed from those rows too, but only rows
  inside the array are ever written back, and the pipeline's obligation for such a window speaks of those rows only.
  For the frame nothing about the output's contents is needed at all: the output window is handed over and taken
  back at contents left unnamed.
-/
import proofs.«173019_g88819923681710_cont_sun_c4_88_2_alg».proof.Proof.Gen.KernelIdeal.Frame
import proofs.«173019_g88819923681710_cont_sun_c4_88_2_alg».proof.Proof.Gen.KernelIdeal.Skeleton
import Idealize.ShloMosaic.Lib.Pipeline.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

theorem zeros1 : (![0] : Fin 1 → Nat) = fun _ => 0 := funext fun a => by fin_cases a; rfl
theorem zeros2 : (![0, 0] : Fin 2 → Nat) = fun _ => 0 := funext fun a => by fin_cases a <;> rfl

set_option maxHeartbeats 2000000 in
/-- The body on whole staging buffers: the five inputs at `x0 … x4`, the output at anything. It runs to the
    continuation with the inputs as they were and the output at the payload of `x0 … x4`: the loads are whole-buffer
    loads (they read the contents), the one store is a whole-buffer store (it leaves its payload). -/
theorem sound_kernel (c : Dev nD) (E : Set ℕ) (i : grid0.Coords)
    (arg1 : Memref sig .tc .vmem S2048x512 .f32) (harg1 : arg1.IsWhole) (arg2 : Memref sig .tc .vmem S512x128 .f32) (harg2 : arg2.IsWhole)
    (arg3 : Memref sig .tc .vmem S1x64 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S2048 .f32) (harg6 : arg6.IsWhole)
    (x0 : Vec F S2048x512 .f32) (x1 : Vec F S512x128 .f32) (x2 : Vec F S1x64 .f32) (x3 : Vec F S64x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1 x2 x3 x4)) -∗ K ⟨⟩))
      ⊢ wp frame (wpE (defs₀ (F := F)) Variants.none c none) E
          (cc0__readout_block i arg1 harg1 arg2 harg2 arg3 harg3 arg4 harg4 arg5 harg5 arg6 harg6) K := by
  simp only [cc0__readout_block_eq_skeleton]; unfold cc0__readout_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero zeros1 inb_S2048_S2048_0 y⟩),
    View.canon_unit_zero zeros1]
  simp only [View.readAt_eq_ld, View.ld_unit_zero (S := S2048x512) zeros2, View.ld_unit_zero (S := S512x128) zeros2,
    View.ld_unit_zero (S := S1x64) zeros2, View.ld_unit_zero (S := S64x1) zeros2, View.ld_unit_zero (S := S1x1) zeros2]

/-! ## The pipeline's proof data -/

variable (m : (ℓ : Loc nD τ sig) → Buf (Elt F) ℓ) (ρ : Dev nD → PrngReg)

/-- The point's block of features as a full 2048 × 512 buffer: the rows inside the array as the array has them,
    the rows past its end (at the last point only) filled with the zero word. -/
def feat (c : Dev nD) (t : Fin cfg0.N) : S2048x512.Idx → Elt F .f32 :=
  win0_0.fill (grid0.coords t) (fun _ => Scalar.ofBits .f32 0#32) (iblk m c 0 t)

/-- What the body leaves in the result's buffer at point `t`, when the features' buffer holds `feat`: the payload
    of the point's five blocks. -/
def res (c : Dev nD) (t : Fin cfg0.N) : S2048.Idx → Elt F .f32 :=
  k0_pay1 (feat m c t) (iblk m c 1 t) (iblk m c 2 t) (iblk m c 3 t) (iblk m c 4 t)

/-- The proof data of the one pipeline on core `c`: the arrays as the region finds them; after the body at point
    `t` each input's buffer at its block (the features' filled out past the array's end) and the result's at
    `res`; the frame's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => feat m c t
    | ⟨1, _⟩ => iblk m c 1 t
    | ⟨2, _⟩ => iblk m c 2 t
    | ⟨3, _⟩ => iblk m c 3 t
    | ⟨4, _⟩ => iblk m c 4 t
    | ⟨5, _⟩ => res m c t
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = feat m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = res m c t := by dsimp only [dats]

/-- The features' buffer is fetched at every point: the body finds the point's block on the rows inside the array
    and whatever the buffer held (`d`) past its end. -/
theorem before0_0 (c : Dev nD) (t : Fin cfg0.N) (d) :
    (dats m 0 c).before 0 t d = win0_0.fill (grid0.coords t) d (iblk m c 0 t) := by
  unfold Dat.before; rw [if_pos (fetch0_0 t)]; rfl

/-- The four small inputs are fetched once and found at their blocks at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation with the result's buffer left unnamed -/

/-- Of the six windows only the result's (window 5) is handed over and taken back at unnamed contents. -/
abbrev forgets : Fin cfg0.W → Bool :=
  fun | 0 => false | 1 => false | 2 => false | 3 => false | 4 => false | 5 => true | ⟨_ + 6, h⟩ => absurd h (Nat.not_lt.2 (Nat.le_add_left _ _))

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- The body at any point, the result's buffer unnamed: the inputs' buffers hold their blocks (the features' with
    anything past the array's end), so `sound_kernel` applies; each input is handed back as found — for the
    features, on the rows inside the array that is the block, which is all its obligation states. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%X5, H5⟩⟩
  rw [before0_0 m c t d0, before0_1 m c t d1, before0_2 m c t d2, before0_3 m c t d3, before0_4 m c t d4]
  iapply (sound_kernel c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (feat m c t) = iblk m c 0 t from win0_0.cut_fill _ _ _]
    iexact H0
  isplitl [H1]; · iexact H1
  isplitl [H2]; · iexact H2
  isplitl [H3]; · iexact H3
  isplitl [H4]; · iexact H4
  iexists _; iexact H5

/-- The library's body obligation, the result's window forgotten, at every point. -/
theorem body_obligationF (c : Dev nD) :
    BodyObligationLoose (dats (F := F) m 0 c) (defs₀ (F := F)) Variants.none () Set.univ forgets := fun t => by
  rw [bigSep_W0, bigSep_W0]
  exact sound_bodyF m c t

/-! ## The run and the frame -/

set_option backward.isDefEq.respectTransparency.types false in
/-- At the compiled mesh, for any values, from any memory with zero counters: every weakly fair execution of @main
    on the TensorCores terminates; every input array of the pipeline ends as the region found it, the result's
    array at contents left unnamed, and every other unscoped buffer as the region found it. -/
theorem run_frame : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligationF m c).toRForget)
    (hshare := fun c => ((dats m 0 c).toRForget forgets).share_full fun _ => rfl)
    (howed := fun _ _ => rfl) (V := V m) (hmain := hmain m Variants.none) (hA := A_eq m) (hΦ := fun _ _ => rfl)

/-- THE FRAME at any `F`: the program runs to the end without a fault and its seven argument arrays end as they
    began — six of them no window's array (unwritten by the region and by the host operations before it), the
    second layer's column an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Eq.mp (congrFun (((dats m 0 c).toRForget forgets).ArrAt_in 3 rfl _) _) ((h c).1 3)).trans
        ((A_eq m c 3).trans (V_main_arg5 m c)),
      ((h c).2 main_arg6 (Pipeline.mem_restRefs_of main_arg6 (by decide) (by decide))).trans (V_main_arg6 m c)⟩)
    (run_frame m ρ)

end Cert.KernelIdeal.Body

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibSqueeze.lean ====
/-
  A column squeezed to a vector, read at coordinates: an `[a, 1]` array cast to `[a]` reads, at `i`, the column at `(i, 0)`
  — what a kernel's `out[:, 0]` of a keepdims column is on the host. (The row form `[1, a] → [a]` is the library's
  `shapeCast_1a_a_apply`.)
-/
import Idealize.ShloMosaic.Lib.ValueIdx
import Idealize.ShloMosaic.Lib.Pipeline.Value

namespace Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.PayI.lean ====
/-
  The body's payload at ONE row, on the extended reals.

  The payload of a grid point is a function of five blocks: the features `x0` (2048 × 512), the combined weight
  `x1` (512 × 128), the hidden bias row `x2` (1 × 64), the second layer's column `x3` (64 × 1) and the scalar
  bias `x4` (1 × 1). Read at row `r` it is
      prod r 0 + ∑ h, silu (prod r (1 + h) + x2 (0, h)) · x3 (h, 0) + x4 (0, 0),
  where `prod r q = ∑ k, x0 (r, k) · x1 (k, q)` is entry (r, q) of the product of the features with the combined
  weight. Every term reads `x0` on row `r` only: rows do not mix. That is what lets the rows past the array's end
  at the last point hold anything.
-/
import proofs.«173019_g88819923681710_cont_sun_c4_88_2_alg».proof.Proof.Gen.KernelIdeal.Skeleton
import proofs.«173019_g88819923681710_cont_sun_c4_88_2_alg».proof.Proof.LibMatmul
import proofs.«173019_g88819923681710_cont_sun_c4_88_2_alg».proof.Proof.LibSqueeze
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- Entry (r, q) of the product of a features block with the combined weight. -/
def prod (x0 : S2048x512.Idx → EReal) (x1 : S512x128.Idx → EReal) (r : Fin 2048) (q : Fin 128) : EReal :=
  ∑ k : Fin 512, x0 (ix2 r k) * x1 (ix2 k q)

/-- `x · logistic x`. -/
def silu (x : EReal) : EReal := x * Ideal.logistic x

/-- Column `1 + h` of the product, `h < 64`. -/
def col (h : Fin 64) : Fin 128 := ⟨1 + h.val, by have := h.isLt; omega⟩

/-- The payload at row `r` as a formula of the five blocks. -/
def rowVal (x0 : S2048x512.Idx → EReal) (x1 : S512x128.Idx → EReal) (x2 : S1x64.Idx → EReal) (x3 : S64x1.Idx → EReal)
    (x4 : S1x1.Idx → EReal) (r : Fin 2048) : EReal :=
  (prod x0 x1 r 0 + ∑ h : Fin 64, silu (prod x0 x1 r (col h) + x2 (ix2 (0 : Fin 1) h)) * x3 (ix2 h (0 : Fin 1)))
    + x4 (ix2 (0 : Fin 1) (0 : Fin 1))

/-- The first product at (r, q). -/
theorem mm1_apply (x0 : FVec Ideal S2048x512 .f32) (x1 : FVec Ideal S512x128 .f32) (r : Fin 2048) (q : Fin 128) :
    matmul dot_S2048x512_S512x128_S2048x128_1_0_0_1_n_n none x0 x1 (constant (F := Ideal) S2048x128 .f32 0x00000000#32) (ix2 r q)
      = prod x0 x1 r q :=
  matmul_zero_ix2 dot_S2048x512_S512x128_S2048x128_1_0_0_1_n_n rfl rfl rfl rfl rfl rfl none x0 x1 r q

/-- The second product at (r, 0). -/
theorem mm2_apply (y : FVec Ideal S2048x64 .f32) (x3 : FVec Ideal S64x1 .f32) (r : Fin 2048) :
    matmul dot_S2048x64_S64x1_S2048x1_1_0_0_1_n_n none y x3 (constant (F := Ideal) S2048x1 .f32 0x00000000#32) (ix2 r (0 : Fin 1))
      = ∑ h : Fin 64, y (ix2 r h) * x3 (ix2 h (0 : Fin 1)) :=
  matmul_zero_ix2 dot_S2048x64_S64x1_S2048x1_1_0_0_1_n_n rfl rfl rfl rfl rfl rfl none y x3 r 0

/-- Column 0 of the product, sliced off. -/
theorem slice0_apply (v : S2048x128.Idx → EReal) (r : Fin 2048) :
    extractStridedSlice S2048x1 ![0, 0] v slices_S2048x128_o0_0_S2048x1 (ix2 r (0 : Fin 1)) = v (ix2 r (0 : Fin 128)) :=
  extractStridedSlice_apply _ v _ _ _ (fun a => by match a with | ⟨0, _⟩ => exact (Nat.zero_add _).symm | ⟨1, _⟩ => rfl)

/-- Columns 1 … 64 of the product, sliced off. -/
theorem slice1_apply (v : S2048x128.Idx → EReal) (r : Fin 2048) (h : Fin 64) :
    extractStridedSlice S2048x64 ![0, 1] v slices_S2048x128_o0_1_S2048x64 (ix2 r h) = v (ix2 r (col h)) :=
  extractStridedSlice_apply _ v _ _ _ (fun a => by match a with | ⟨0, _⟩ => exact (Nat.zero_add _).symm | ⟨1, _⟩ => rfl)

/-- The hidden bias row spread over the rows. -/
theorem brow_apply (x2 : S1x64.Idx → EReal) (r : Fin 2048) (h : Fin 64) :
    broadcastTo S2048x64 x2 broadcasts_S1x64_S2048x64 (ix2 r h) = x2 (ix2 (0 : Fin 1) h) :=
  broadcastTo_apply x2 _ _ _ (fun a => by match a with | ⟨0, _⟩ => rfl | ⟨1, _⟩ => rfl)

/-- The scalar bias spread over the rows. -/
theorem bone_apply (x4 : S1x1.Idx → EReal) (r : Fin 2048) :
    broadcastTo S2048x1 x4 broadcasts_S1x1_S2048x1 (ix2 r (0 : Fin 1)) = x4 (ix2 (0 : Fin 1) (0 : Fin 1)) :=
  broadcastTo_apply x4 _ _ _ (fun a => by match a with | ⟨0, _⟩ => rfl | ⟨1, _⟩ => rfl)

/-- The logistic function is applied entry by entry. -/
theorem logistic_apply {s : Shape} (v : FVec Ideal s .f32) (i : s.Idx) : logistic v i = Ideal.logistic (v i) := rfl

/-- The payload at row `r`. -/
theorem pay_apply (x0 : Vec Ideal S2048x512 .f32) (x1 : Vec Ideal S512x128 .f32) (x2 : Vec Ideal S1x64 .f32)
    (x3 : Vec Ideal S64x1 .f32) (x4 : Vec Ideal S1x1 .f32) (r : Fin 2048) :
    k0_pay1 (F := Ideal) x0 x1 x2 x3 x4 (ix1 r) = rowVal x0 x1 x2 x3 x4 r := by
  unfold k0_pay1 rowVal silu
  rw [shapeCast_a1_a_apply]
  simp only [addf_apply, shapeCast_self, slice0_apply, bone_apply, mm1_apply, mm2_apply, mulf_apply, slice1_apply,
    brow_apply, logistic_apply]

/-- Rows do not mix: two feature blocks that agree on row `r` give the same payload there. -/
theorem pay_row_congr (x0 x0' : Vec Ideal S2048x512 .f32) (x1 : Vec Ideal S512x128 .f32) (x2 : Vec Ideal S1x64 .f32)
    (x3 : Vec Ideal S64x1 .f32) (x4 : Vec Ideal S1x1 .f32) (r : Fin 2048) (h : ∀ k : Fin 512, x0 (ix2 r k) = x0' (ix2 r k)) :
    k0_pay1 (F := Ideal) x0 x1 x2 x3 x4 (ix1 r) = k0_pay1 (F := Ideal) x0' x1 x2 x3 x4 (ix1 r) := by
  rw [pay_apply, pay_apply]
  unfold rowVal prod
  simp only [h]

end Cert.KernelIdeal.Pay

end
-- ==== Proof.ValueI.lean ====
/-
  What the idealized kernel's result array holds after the run, as ONE function of the arrays the region is
  launched on, on the extended reals.

  Grid point `t` handles nodes `2048·t … 2048·t + 2047`; the last point, `t = 48`, only the 1696 nodes
  `98304 … 99999` that exist. The row `r` of the point's result is the payload's row formula of row `r` of the point's
  features block and of the four small blocks, which are whole arrays; and row `r` of the features block is row
  `2048·t + r` of the flattened features. Rows do not mix, so what the rows past the array's end hold at the last
  point does not matter: the rows written back are the same. Every node lies in exactly the block of the point
  `n / 2048`, so the result array ends holding, at every node, the row formula of that node's own features.
-/
import proofs.«173019_g88819923681710_cont_sun_c4_88_2_alg».proof.Proof.BodyI
import proofs.«173019_g88819923681710_cont_sun_c4_88_2_alg».proof.Proof.PayI
import Idealize.ShloMosaic.Lib.Pipeline.Value

set_option maxRecDepth 16384

noncomputable section

open scoped BigOperators

namespace Cert.KernelIdeal.Value

open Cert.KernelIdeal Cert.KernelIdeal.Gen Cert.KernelIdeal.Body Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The index maps over the grid -/

/-- The features' block at point `t` starts at row `2048·t`, column 0, spans all 512 columns, and is cut on the
    rows exactly as the result's block is. -/
theorem idx0 : ∀ t : Fin cfg0.N, win0_0.index t 0 = t.val ∧ win0_0.index t 1 = 0
    ∧ win0_0.xsize (grid0.coords t) 1 = 512 ∧ win0_0.xsize (grid0.coords t) 0 = win0_5.xsize (grid0.coords t) 0 :=
  (by decide +kernel : ∀ t : Fin grid0.N, win0_0.index t 0 = t.val ∧ win0_0.index t 1 = 0
    ∧ win0_0.xsize (grid0.coords t) 1 = 512 ∧ win0_0.xsize (grid0.coords t) 0 = win0_5.xsize (grid0.coords t) 0)

/-- The result's block at point `t` starts at node `2048·t` and has 2048 nodes, 1696 at the last point. -/
theorem idx5 : ∀ t : Fin cfg0.N, win0_5.index t 0 = t.val
    ∧ win0_5.xsize (grid0.coords t) 0 = (if t.val = 48 then 1696 else 2048) :=
  (by decide +kernel : ∀ t : Fin grid0.N, win0_5.index t 0 = t.val
    ∧ win0_5.xsize (grid0.coords t) 0 = (if t.val = 48 then 1696 else 2048))

/-- The four small inputs' blocks are their whole arrays at every point. -/
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

/-! ## The arrays the region is launched on, and the blocks read at coordinates -/

/-- The flattened features, the combined weight, the hidden bias row, the second layer's column, the scalar bias:
    the five input windows' arrays as the region finds them. -/
abbrev Efl (c : Dev nD) : S100000x512.Idx → EReal := V m c main_call0_v0
abbrev Wc (c : Dev nD) : S512x128.Idx → EReal := V m c main_call0_v12
abbrev B1 (c : Dev nD) : S1x64.Idx → EReal := V m c main_call0_v17
abbrev W2 (c : Dev nD) : S64x1.Idx → EReal := V m c main_arg5
abbrev Bs (c : Dev nD) : S1x1.Idx → EReal := V m c main_call0_v16

/-- A small input's block is its whole array. -/
theorem iblk1_eq (c : Dev nD) (t : Fin cfg0.N) : (iblk m c 1 t : S512x128.Idx → EReal) = Wc m c := by
  funext y
  show V m c main_call0_v12 (((cfg0.win 1).blk t).view.emb y) = V m c main_call0_v12 y
  refine congrArg _ (funext fun a => Fin.ext ?_)
  match a with
  | ⟨0, _⟩ => show win0_1.index t 0 * 512 + 1 * (y 0).val = (y 0).val; rw [(idx1 t).1]; omega
  | ⟨1, _⟩ => show win0_1.index t 1 * 128 + 1 * (y 1).val = (y 1).val; rw [(idx1 t).2]; omega
theorem iblk2_eq (c : Dev nD) (t : Fin cfg0.N) : (iblk m c 2 t : S1x64.Idx → EReal) = B1 m c := by
  funext y
  show V m c main_call0_v17 (((cfg0.win 2).blk t).view.emb y) = V m c main_call0_v17 y
  refine congrArg _ (funext fun a => Fin.ext ?_)
  match a with
  | ⟨0, _⟩ => show win0_2.index t 0 * 1 + 1 * (y 0).val = (y 0).val; rw [(idx2 t).1]; omega
  | ⟨1, _⟩ => show win0_2.index t 1 * 64 + 1 * (y 1).val = (y 1).val; rw [(idx2 t).2]; omega
theorem iblk3_eq (c : Dev nD) (t : Fin cfg0.N) : (iblk m c 3 t : S64x1.Idx → EReal) = W2 m c := by
  funext y
  show V m c main_arg5 (((cfg0.win 3).blk t).view.emb y) = V m c main_arg5 y
  refine congrArg _ (funext fun a => Fin.ext ?_)
  match a with
  | ⟨0, _⟩ => show win0_3.index t 0 * 64 + 1 * (y 0).val = (y 0).val; rw [(idx3 t).1]; omega
  | ⟨1, _⟩ => show win0_3.index t 1 * 1 + 1 * (y 1).val = (y 1).val; rw [(idx3 t).2]; omega
theorem iblk4_eq (c : Dev nD) (t : Fin cfg0.N) : (iblk m c 4 t : S1x1.Idx → EReal) = Bs m c := by
  funext y
  show V m c main_call0_v16 (((cfg0.win 4).blk t).view.emb y) = V m c main_call0_v16 y
  refine congrArg _ (funext fun a => Fin.ext ?_)
  match a with
  | ⟨0, _⟩ => show win0_4.index t 0 * 1 + 1 * (y 0).val = (y 0).val; rw [(idx4 t).1]; omega
  | ⟨1, _⟩ => show win0_4.index t 1 * 1 + 1 * (y 1).val = (y 1).val; rw [(idx4 t).2]; omega

/-- A block filled out past the array's end, read at an index the transfer moves, is the block there. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill
  rw [dif_pos ((w.moved_iff i j).mpr h)]

/-- Row `r` (inside the array) of the features' buffer at point `t`, whatever fills it past the array's end, is
    row `2048·t + r` of the flattened features. -/
theorem feat_row (c : Dev nD) (t : Fin cfg0.N) (d : S2048x512.Idx → EReal) (r : Fin 2048) (k : Fin 512) (n : Fin 100000)
    (hr : r.val < win0_5.xsize (grid0.coords t) 0) (hn : n.val = 2048 * t.val + r.val) :
    win0_0.fill (grid0.coords t) d (iblk m c 0 t) (ix2 r k) = Efl m c (ix2 n k) := by
  have hlt : ∀ a, ((ix2 r k : S2048x512.Idx) a).val < win0_0.xsize (grid0.coords t) a := fun a => by
    match a with
    | ⟨0, _⟩ => show r.val < win0_0.xsize (grid0.coords t) 0; rw [(idx0 t).2.2.2]; exact hr
    | ⟨1, _⟩ => show k.val < win0_0.xsize (grid0.coords t) 1; rw [(idx0 t).2.2.1]; exact k.isLt
  rw [fill_apply_of_lt win0_0 (grid0.coords t) d (iblk m c 0 t) (ix2 r k) hlt]
  show V m c main_call0_v0 (((cfg0.win 0).blk t).view.emb _) = V m c main_call0_v0 (ix2 n k)
  refine congrArg _ (funext fun a => Fin.ext ?_)
  match a with
  | ⟨0, _⟩ => show win0_0.index t 0 * 2048 + 1 * r.val = n.val; rw [(idx0 t).1]; omega
  | ⟨1, _⟩ => show win0_0.index t 1 * 512 + 1 * k.val = k.val; rw [(idx0 t).2.1]; omega

/-! ## The result's rows do not depend on what lies past the array's end -/

/-- The part of the result's buffer that is written back, computed from a features' buffer filled out with `d`,
    is the part computed from the one filled out with the zero word. -/
theorem cut_res_indep (c : Dev nD) (t : Fin cfg0.N) (d : S2048x512.Idx → EReal) :
    win0_5.cut (grid0.coords t) (k0_pay1 (F := Ideal) (win0_0.fill (grid0.coords t) d (iblk m c 0 t)) (iblk m c 1 t)
        (iblk m c 2 t) (iblk m c 3 t) (iblk m c 4 t))
      = win0_5.cut (grid0.coords t) (res m c t) := by
  funext y
  have hy : (y 0).val < win0_5.xsize (grid0.coords t) 0 := (y 0).isLt
  have h2048 : (y 0).val < 2048 := lt_of_lt_of_le hy (win0_5.xsize_le (grid0.coords t) 0)
  have e : win0_5.xinj (grid0.coords t) y = ix1 (⟨(y 0).val, h2048⟩ : Fin 2048) := by
    funext a; match a with | ⟨0, _⟩ => rfl
  show k0_pay1 (F := Ideal) _ _ _ _ _ (win0_5.xinj (grid0.coords t) y) = res m c t (win0_5.xinj (grid0.coords t) y)
  rw [e]
  unfold res feat
  refine pay_row_congr _ _ _ _ _ _ _ (fun k => ?_)
  have hn : 2048 * t.val + (y 0).val < 100000 := by
    have h5 := (idx5 t).2; have ht := t.isLt; rw [h5] at hy
    have : t.val < 49 := by rw [← N_0]; exact ht
    split at hy <;> omega
  rw [feat_row m c t d _ k ⟨2048 * t.val + (y 0).val, hn⟩ hy rfl, feat_row m c t _ _ k ⟨2048 * t.val + (y 0).val, hn⟩ hy rfl]

/-! ## The exact body obligation and the run -/

def bodyPreE (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPostE (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        (win0_5.fill (grid0.coords t) d (win0_5.cut (grid0.coords t) ((dats m 0 c).after 5 t)))))

/-- The body at any point, the result's buffer named on the rows that are written back: the body leaves there the
    payload of what the features' buffer held, and on those rows that is `res` (`cut_res_indep`). -/
theorem sound_bodyE (c : Dev nD) (t : Fin cfg0.N) :
    bodyPreE m c t ⊢ wp frame (wpE (defs₀ (F := Ideal)) Variants.none c none) Set.univ (bodyAt0 t) (fun _ => bodyPostE m c t) := by
  unfold bodyPreE bodyPostE bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (sound_kernel c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (feat m c t) = iblk m c 0 t from win0_0.cut_fill _ _ _]
    iexact H0
  isplitl [H1]; · iexact H1
  isplitl [H2]; · iexact H2
  isplitl [H3]; · iexact H3
  isplitl [H4]; · iexact H4
  iexists k0_pay1 (F := Ideal) (win0_0.fill (grid0.coords t) d0 (iblk m c 0 t)) (iblk m c 1 t) (iblk m c 2 t) (iblk m c 3 t) (iblk m c 4 t)
  rw [win0_5.fill_congr_cut (grid0.coords t) (cut_res_indep m c t d0)]
  iexact H5

/-- The library's body obligation, nothing forgotten, at every point. -/
theorem body_obligationE (c : Dev nD) :
    BodyObligationLoose (dats (F := Ideal) m 0 c) (defs₀ (F := Ideal)) Variants.none () Set.univ := fun t => by
  rw [bigSep_W0, bigSep_W0]
  exact sound_bodyE m c t

set_option backward.isDefEq.respectTransparency.types false in
/-- The run with every array's final contents named by the proof data. -/
theorem run_value : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligationE m c) (hshare := fun c => (dats m 0 c).share_full fun _ => rfl)
    (howed := fun _ _ => rfl) (V := V m) (hmain := hmain m Variants.none) (hA := fun _ _ => rfl) (hΦ := fun _ _ => rfl)

/-! ## From blocks to the array -/

/-- The readout of node `n` as the kernel computes it, over the arrays the region is launched on. -/
def nodeVal (c : Dev nD) (n : Fin 100000) : EReal :=
  ((∑ k : Fin 512, Efl m c (ix2 n k) * Wc m c (ix2 k (0 : Fin 128)))
    + ∑ h : Fin 64, silu ((∑ k : Fin 512, Efl m c (ix2 n k) * Wc m c (ix2 k (col h))) + B1 m c (ix2 (0 : Fin 1) h))
        * W2 m c (ix2 h (0 : Fin 1)))
    + Bs m c (ix2 (0 : Fin 1) (0 : Fin 1))

/-- The result array the kernel ends with. -/
def G (c : Dev nD) : S100000.Idx → EReal := fun j => nodeVal m c (j 0)

/-- What point `t` writes back is its block of `G`. -/
theorem flushed_eq (c : Dev nD) (t : Fin cfg0.N) :
    (dats m 0 c).flushed 5 t = ((cfg0.win 5).blk t).view.read (Elt Ideal) (G m c) := by
  funext y
  have hy : (y 0).val < win0_5.xsize (grid0.coords t) 0 := (y 0).isLt
  have h2048 : (y 0).val < 2048 := lt_of_lt_of_le hy (win0_5.xsize_le (grid0.coords t) 0)
  have e : win0_5.xinj (grid0.coords t) y = ix1 (⟨(y 0).val, h2048⟩ : Fin 2048) := by
    funext a; match a with | ⟨0, _⟩ => rfl
  have hn : 2048 * t.val + (y 0).val < 100000 := by
    have h5 := (idx5 t).2; have ht := t.isLt; rw [h5] at hy
    have : t.val < 49 := by rw [← N_0]; exact ht
    split at hy <;> omega
  have hemb : ((cfg0.win 5).blk t).view.emb y = ix1 (⟨2048 * t.val + (y 0).val, hn⟩ : Fin 100000) := by
    funext a
    match a with
    | ⟨0, _⟩ => exact Fin.ext (by show win0_5.index t 0 * 2048 + 1 * (y 0).val = 2048 * t.val + (y 0).val; rw [(idx5 t).1]; omega)
  show win0_5.cut (grid0.coords t) ((dats m 0 c).after 5 t) y = G m c (((cfg0.win 5).blk t).view.emb y)
  rw [hemb, after0_5]
  show res m c t (win0_5.xinj (grid0.coords t) y) = nodeVal m c ⟨2048 * t.val + (y 0).val, hn⟩
  rw [e]
  unfold res
  rw [pay_apply, iblk1_eq, iblk2_eq, iblk3_eq, iblk4_eq]
  have hrow : ∀ k : Fin 512, feat m c t (ix2 (⟨(y 0).val, h2048⟩ : Fin 2048) k)
      = Efl m c (ix2 (⟨2048 * t.val + (y 0).val, hn⟩ : Fin 100000) k) := fun k =>
    feat_row m c t _ ⟨(y 0).val, h2048⟩ k ⟨2048 * t.val + (y 0).val, hn⟩ hy rfl
  unfold rowVal prod nodeVal
  simp only [hrow]

/-- Every node lies in the block of the point `n / 2048`. -/
theorem cover (c : Dev nD) (i : S100000.Idx) :
    ∃ t : Fin cfg0.N, (cfg0.win 5).flush t = true ∧ i ∈ ((cfg0.win 5).blk t).view.set := by
  have hi : (i 0).val < 100000 := (i 0).isLt
  have ht : (i 0).val / 2048 < cfg0.N := by show _ < grid0.N; rw [N_0]; omega
  refine ⟨⟨(i 0).val / 2048, ht⟩, flush0_5 _, ?_⟩
  show i ∈ ((View.whole main_v0).slice (win0_5.rect ⟨(i 0).val / 2048, ht⟩)).set
  rw [View.set_slice_whole, Rect.mem_set_unit]
  intro a
  match a with
  | ⟨0, _⟩ =>
    show win0_5.index ⟨(i 0).val / 2048, ht⟩ 0 * 2048 ≤ (i 0).val
      ∧ (i 0).val < win0_5.index ⟨(i 0).val / 2048, ht⟩ 0 * 2048 + win0_5.xsize (grid0.coords ⟨(i 0).val / 2048, ht⟩) 0
    rw [(idx5 _).1, (idx5 _).2]
    show (i 0).val / 2048 * 2048 ≤ (i 0).val ∧ (i 0).val < (i 0).val / 2048 * 2048 + (if (i 0).val / 2048 = 48 then 1696 else 2048)
    split <;> omega

/-- The result array after the run is `G`. -/
theorem final (c : Dev nD) : (dats m 0 c).arrAt 5 cfg0.N = G m c :=
  (dats m 0 c).arrAt_eq_of_cover 5 (G m c) (fun t _ => flushed_eq m c t) (cover c)

/-- THE KERNEL'S RUN, its result named: it ends with the result array at `G` and the seven arguments as they
    were. -/
theorem run_out : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).2 main_arg6 (Pipeline.mem_restRefs_of main_arg6 (by decide) (by decide))).trans (V_main_arg6 m c)⟩)
    (run_value m ρ)

end Cert.KernelIdeal.Value

end
-- ==== Proof.LibScatterSet.lean ====
import Idealize.ShloMosaic.PureOps.ShapeOps
import Idealize.ShloMosaic.PureOps.Dims

/-!
A scatter whose body returns the update (`x.at[…].set(v)`) is a left fold that overwrites, update index by
update index, the operand's element at the index the update lands on. When every update index lands inside the
operand and two different update indices never land on the same element, the result at a landing index is the
update that landed there: later steps of the fold write elsewhere.
-/

namespace Idealize.ShloMosaic.ScatterSet

/-- A fold of overwriting steps, step `n` writing `v n` at `k n`, read at `k a` for a step `a` of the list, is
    `v a` when `k` is injective: the last write at `k a` is step `a`'s own. -/
theorem foldl_overwrite_apply {ι κ α : Type} [DecidableEq κ] (k : ι → κ) (hk : Function.Injective k) (v : ι → α)
    (x : κ → α) (l : List ι) :
    ∀ a ∈ l, (l.foldl (fun r n => fun i' => if i' = k n then v n else r i') x) (k a) = v a := by
  induction l using List.reverseRecOn with
  | nil => intro a ha; cases ha
  | append_singleton l b ih =>
    intro a ha
    rw [List.foldl_append]
    simp only [List.foldl_cons, List.foldl_nil]
    by_cases hab : a = b
    · subst hab; rw [if_pos rfl]
    · rw [if_neg (fun h => hab (hk h))]
      refine ih a ?_
      rcases List.mem_append.mp ha with h | h
      · exact h
      · exact absurd (List.mem_singleton.mp h) hab

/-- `Host.scatter` with the body "return the update", every update index `j` landing inside the operand at
    `g j` with `g` injective: the result at `g j` is update `j`. -/
theorem scatter_set_apply {α : Type} {s si u : Shape} {w : Nat} (d : ScatterDims s si u) (x : s.Idx → α)
    (idx : IVec si w) (upd : u.Idx → α) (g : u.Idx → s.Idx) (hg : ∀ j, d.resultIdx? j idx = some (g j))
    (hinj : Function.Injective g) (j : u.Idx) :
    Host.scatter d (fun _ b => b) x idx upd (g j) = upd j := by
  unfold Host.scatter
  have h := foldl_overwrite_apply (g ∘ u.rowMajor.symm) (hinj.comp u.rowMajor.symm.injective) (upd ∘ u.rowMajor.symm) x
    (List.finRange u.numel) (u.rowMajor j) (List.mem_finRange _)
  simp only [Function.comp_apply, Equiv.symm_apply_apply] at h
  rw [← h]
  refine congrFun (List.foldl_ext _ _ x fun r n _ => ?_) (g j)
  rw [hg]

end Idealize.ShloMosaic.ScatterSet
-- ==== Proof.LibScatterKeep.lean ====
import Idealize.ShloMosaic.PureOps.ShapeOps
import Idealize.ShloMosaic.PureOps.Dims

/-!
A scatter is a left fold over the update indices: each step rewrites the operand's element at the index its update
lands on, or nothing when the update falls outside the operand. An element that no update lands on is therefore never
rewritten: whatever the body, the result there is the operand's element.
-/

namespace Idealize.ShloMosaic.ScatterKeep

/-- A fold of steps, each of which leaves the value at `i` as it found it, read at `i`, is the start value at `i`. -/
theorem foldl_keep_apply {ι κ α : Type} (step : (κ → α) → ι → (κ → α)) (i : κ)
    (hstep : ∀ r n, step r n i = r i) (l : List ι) : ∀ x : κ → α, (l.foldl step x) i = x i := by
  induction l with
  | nil => intro x; rfl
  | cons n l ih => intro x; rw [List.foldl_cons, ih, hstep]

/-- `Host.scatter`, with any body, at an index `i` on which no update index lands: the operand at `i`. -/
theorem scatter_apply_of_not_landed {α : Type} {s si u : Shape} {w : Nat} (d : ScatterDims s si u) (f : α → α → α)
    (x : s.Idx → α) (idx : IVec si w) (upd : u.Idx → α) (i : s.Idx) (hi : ∀ j, d.resultIdx? j idx ≠ some i) :
    Host.scatter d f x idx upd i = x i := by
  unfold Host.scatter
  refine foldl_keep_apply _ i (fun r n => ?_) _ x
  show (match d.resultIdx? (u.rowMajor.symm n) idx with
      | some i' => fun i'' => if i'' = i' then f (r i') (upd (u.rowMajor.symm n)) else r i''
      | none => r) i = r i
  rcases h : d.resultIdx? (u.rowMajor.symm n) idx with _ | i'
  · rfl
  · show (if i = i' then f (r i') (upd (u.rowMajor.symm n)) else r i) = r i
    rw [if_neg]
    intro e
    exact hi _ (e ▸ h)

/-- The same, when every update index `j` lands at `g j` and `i` is none of the `g j`. -/
theorem scatter_apply_of_ne {α : Type} {s si u : Shape} {w : Nat} (d : ScatterDims s si u) (f : α → α → α)
    (x : s.Idx → α) (idx : IVec si w) (upd : u.Idx → α) (g : u.Idx → s.Idx) (hg : ∀ j, d.resultIdx? j idx = some (g j))
    (i : s.Idx) (hi : ∀ j, g j ≠ i) :
    Host.scatter d f x idx upd i = x i :=
  scatter_apply_of_not_landed d f x idx upd i fun j h => hi j (Option.some.inj ((hg j).symm.trans h))

end Idealize.ShloMosaic.ScatterKeep
-- ==== Proof.LibPad.lean ====
/-
  `stablehlo.pad` read at an index: a result index that lands on operand entry `k` (on every axis its coordinate is
  `lo + k · (interior + 1)`) reads the operand there; an index that misses the operand on some axis reads the padding value.
-/
import Idealize.ShloMosaic.PureOps.ShapeOps

namespace Idealize.ShloMosaic.LibPad

open Idealize.ShloMosaic

variable {s t u : Shape} {α : Type}

/-- The padded array at an index that lands on the operand's entry `k` is the operand at `k`. -/
theorem pad_apply_of_mem (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a]
    refine ⟨Nat.le_add_right _ _, ?_, ?_⟩
    · rw [Nat.add_sub_cancel_left]; exact Nat.mul_mod_left _ _
    · rw [Nat.add_sub_cancel_left, Nat.mul_div_cancel _ (Nat.succ_pos _)]; exact (k a).isLt
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- The padded array at an index beyond the operand on some axis (no interior padding there is needed: it is enough that the
    coordinate, less the low padding, divided by the stride, is not below the operand's extent) is the padding value. -/
theorem pad_apply_of_not_mem (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg]
  intro hin
  exact absurd (hin a).2.2 (Nat.not_lt.mpr ha)

end Idealize.ShloMosaic.LibPad
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.LibTypedLines.lean ====
/-
  Straight lines of host operations written through TYPED references.

  A typed reference is a buffer together with the fact that its type is a given value type; the typed builders
  transport contents along that fact when they read an operand and when they write the result. For a line in which
  operation `j` writes exactly reference `j` of a list `W` (the aligned lines of `LibAlignedLines`), the final
  contents of the result, READ AT ITS VALUE TYPE, are the operation's function of the final contents of the operands
  read at theirs: the transports stand outside the function, on single buffers. The type facts are equations whose
  one side is a variable, so they are substituted away and each statement is the untyped one.
-/
import proofs.«173019_g88819923681710_cont_sun_c4_88_2_alg».proof.Proof.LibAlignedLines

noncomputable section

namespace Idealize.ShloMosaic.StableHlo.AlignedLines

open Idealize.ShloMosaic Idealize.SL.Sem Idealize.ShloMosaic.StableHlo

variable {τ : Topo} {sig : RefSig} {Val : EltTy → Type}
variable {l : List (HloOp τ sig Val)} {W : List (Ref sig .tc)}

/-- A typed two-operand operation at position `j`: its result, read at its value type, is the function of the
    operands' final contents read at theirs. -/
theorem Aligned.tbinary_at (h : Aligned l W) (V : Valuation τ sig Val) (j : Nat) {Ta Tb Ty : BufTy}
    (a : TRef sig Ta) (b : TRef sig Tb) (y : TRef sig Ty) (f : Ta.Contents Val → Tb.Contents Val → Ty.Contents Val)
    (hop : l[j]? = some (TRef.binary a b y f)) (hy' : y.ref ∉ W.drop (j + 1)) (ha' : a.ref ∉ W.drop j) (hb' : b.ref ∉ W.drop j) :
    y.ofBuf (after l V (Proc.devRef .tc y.ref))
      = f (a.ofBuf (after l V (Proc.devRef .tc a.ref))) (b.ofBuf (after l V (Proc.devRef .tc b.ref))) := by
  obtain ⟨ra, rfl, _, _⟩ := a
  obtain ⟨rb, rfl, _, _⟩ := b
  obtain ⟨ry, rfl, _, _⟩ := y
  exact h.binary_at V j hop hy' ha' hb'

/-- A typed three-operand operation at position `j`, likewise. -/
theorem Aligned.tternary_at (h : Aligned l W) (V : Valuation τ sig Val) (j : Nat) {Tc Ta Tb Ty : BufTy}
    (c : TRef sig Tc) (a : TRef sig Ta) (b : TRef sig Tb) (y : TRef sig Ty)
    (f : Tc.Contents Val → Ta.Contents Val → Tb.Contents Val → Ty.Contents Val)
    (hop : l[j]? = some (TRef.ternary c a b y f)) (hy' : y.ref ∉ W.drop (j + 1))
    (hc' : c.ref ∉ W.drop j) (ha' : a.ref ∉ W.drop j) (hb' : b.ref ∉ W.drop j) :
    y.ofBuf (after l V (Proc.devRef .tc y.ref))
      = f (c.ofBuf (after l V (Proc.devRef .tc c.ref))) (a.ofBuf (after l V (Proc.devRef .tc a.ref)))
          (b.ofBuf (after l V (Proc.devRef .tc b.ref))) := by
  obtain ⟨rc, rfl, _, _⟩ := c
  obtain ⟨ra, rfl, _, _⟩ := a
  obtain ⟨rb, rfl, _, _⟩ := b
  obtain ⟨ry, rfl, _, _⟩ := y
  exact h.ternary_at V j hop hy' hc' ha' hb'

/-- A typed one-operand operation at position `j`, likewise. -/
theorem Aligned.tunary_at (h : Aligned l W) (V : Valuation τ sig Val) (j : Nat) {Tx Ty : BufTy}
    (x : TRef sig Tx) (y : TRef sig Ty) (f : Tx.Contents Val → Ty.Contents Val)
    (hop : l[j]? = some (TRef.unary x y f)) (hy' : y.ref ∉ W.drop (j + 1)) (hx' : x.ref ∉ W.drop j) :
    y.ofBuf (after l V (Proc.devRef .tc y.ref)) = f (x.ofBuf (after l V (Proc.devRef .tc x.ref))) := by
  obtain ⟨rx, rfl, _, _⟩ := x
  obtain ⟨ry, rfl, _, _⟩ := y
  exact h.unary_at V j hop hy' hx'

end Idealize.ShloMosaic.StableHlo.AlignedLines

end
-- ==== Proof.HostLine.lean ====
/-
  The host operations before the kernel's region, read one at a time.

  The 25 operations form a straight line in which operation `j` writes a reference of its own, the `j`-th of the
  list `W0`, and reads only references written earlier or never. So the contents a reference ends with are its
  operation's function of the contents its operands END with: nothing later touches them. Stated here for the six
  operations that assemble the combined weight — two overwrites of a zero array, two changes of shape, a
  concatenation and a padding — so that each is read without unfolding the others.
-/
import proofs.«173019_g88819923681710_cont_sun_c4_88_2_alg».proof.Proof.Gen.KernelIdeal.Frame
import proofs.«173019_g88819923681710_cont_sun_c4_88_2_alg».proof.Proof.LibTypedLines
import Idealize.ShloMosaic.Lib.StableHlo.Run
import Idealize.ShloMosaic.PureOps.Ideal

set_option maxRecDepth 16384

noncomputable section

namespace Cert.KernelIdeal.HostLine

open Cert.KernelIdeal Cert.KernelIdeal.Gen Idealize.ShloMosaic
open Idealize.ShloMosaic.StableHlo Idealize.ShloMosaic.StableHlo.AlignedLines Idealize.ShloMosaic.TcCoe Idealize.SL.Sem

/-- The references the 25 operations write, in order. -/
def W0 : List (Ref sig .tc) :=
  [main_call0_v0, main_call0_cst, main_call0_v1, main_call0_v2, main_call0_v3, main_call0_c, main_call0_v4, main_call0_v5,
    main_call0_cst_0, main_call0_v6, main_call0_c_1, main_call0_v7, main_call0_v8, main_call0_v9, main_call0_v10,
    main_call0_v11, main_call0_c_2, main_call0_call0_v0, main_call0_v12, main_call0_cst_3, main_call0_v13, main_call0_v14,
    main_call0_v15, main_call0_v16, main_call0_v17]

/-- Operation `j` writes exactly reference `j`. -/
theorem aligned0 : Aligned (hostOps0 (F := Ideal)) W0 := by
  unfold W0 Aligned
  repeat (first | exact List.Forall₂.nil | refine List.Forall₂.cons rfl ?_)

variable (m : (ℓ : Loc nD τ sig) → Buf (Elt Ideal) ℓ) (c : Dev nD)

/-- The first overwrite: columns 0 … 2 of a zero `[128, 4]` array set to the transposed head weights. The
    operation's result is its function of its operands' final contents; the line's effect on memory is kept as
    an unknown function of the reference, so that none of it is unfolded. -/
theorem e5 : (V (F := Ideal) m c main_call0_v5 : S128x4.Idx → EReal)
    = Host.scatter scatter_S128x4_S1_S128x3_01_n_1_0 (fun _ b => b) (V (F := Ideal) m c main_call0_v1 : S128x4.Idx → EReal)
        (V (F := Ideal) m c main_call0_v4 : IVec S1 32) (V (F := Ideal) m c main_call0_v3 : S128x3.Idx → EReal) := by
  have h := aligned0.tternary_at (fun b => m (c, b)) 7 _ _ _ _ _ (rfl : (hostOps0 (F := Ideal))[7]? = some _)
    (by decide +kernel) (by decide +kernel) (by decide +kernel) (by decide +kernel)
  unfold Gen.V
  generalize after (hostOps0 (F := Ideal)) (fun b => m (c, b)) = Z at h ⊢
  exact h

/-- The second overwrite: the slab at middle index 3 of a zero `[128, 4, 64]` array set to the first layer. -/
theorem e8V : (V (F := Ideal) m c main_call0_v8 : S128x4x64.Idx → EReal)
    = Host.scatter scatter_S128x4x64_S1_S128x64_01_1_1_0 (fun _ b => b) (V (F := Ideal) m c main_call0_v6 : S128x4x64.Idx → EReal)
        (V (F := Ideal) m c main_call0_v7 : IVec S1 32) (V (F := Ideal) m c main_arg3 : S128x64.Idx → EReal) := by
  have h := aligned0.tternary_at (fun b => m (c, b)) 12 _ _ _ _ _ (rfl : (hostOps0 (F := Ideal))[12]? = some _)
    (by decide +kernel) (by decide +kernel) (by decide +kernel) (by decide +kernel)
  unfold Gen.V
  generalize after (hostOps0 (F := Ideal)) (fun b => m (c, b)) = Z at h ⊢
  exact h

/-- The first layer is an argument no host operation writes. -/
theorem e8 : (V (F := Ideal) m c main_call0_v8 : S128x4x64.Idx → EReal)
    = Host.scatter scatter_S128x4x64_S1_S128x64_01_1_1_0 (fun _ b => b) (V (F := Ideal) m c main_call0_v6 : S128x4x64.Idx → EReal)
        (V (F := Ideal) m c main_call0_v7 : IVec S1 32) (m ((c : Thread nD τ).loc main_arg3) : S128x64.Idx → EReal) :=
  (e8V m c).trans (congrArg (fun u : S128x64.Idx → EReal => Host.scatter scatter_S128x4x64_S1_S128x64_01_1_1_0 (fun _ b => b)
    (V (F := Ideal) m c main_call0_v6 : S128x4x64.Idx → EReal) (V (F := Ideal) m c main_call0_v7 : IVec S1 32) u) (V_main_arg3 m c))

/-- The two arrays flattened to 512 rows. -/
theorem e9 : (V (F := Ideal) m c main_call0_v9 : S512x1.Idx → EReal)
    = shapeCast S512x1 (V (F := Ideal) m c main_call0_v5 : S128x4.Idx → EReal) shapeCasts_S128x4_S512x1 :=
  (aligned0.reshape_at (fun b => m (c, b)) 13 rfl (by decide) (by decide)).trans rfl
theorem e10 : (V (F := Ideal) m c main_call0_v10 : S512x64.Idx → EReal)
    = shapeCast S512x64 (V (F := Ideal) m c main_call0_v8 : S128x4x64.Idx → EReal) shapeCasts_S128x4x64_S512x64 :=
  (aligned0.reshape_at (fun b => m (c, b)) 14 rfl (by decide) (by decide)).trans rfl

/-- Laid side by side. -/
theorem e11 : (V (F := Ideal) m c main_call0_v11 : S512x65.Idx → EReal)
    = concatenate S512x65 1 [⟨S512x1, (V (F := Ideal) m c main_call0_v9 : S512x1.Idx → EReal)⟩,
        ⟨S512x64, (V (F := Ideal) m c main_call0_v10 : S512x64.Idx → EReal)⟩] concatenates_S512x1_S512x64_S512x65_d1 := by
  have h := aligned0.tbinary_at (fun b => m (c, b)) 15 _ _ _ _ (rfl : (hostOps0 (F := Ideal))[15]? = some _)
    (by decide +kernel) (by decide +kernel) (by decide +kernel)
  unfold Gen.V
  generalize after (hostOps0 (F := Ideal)) (fun b => m (c, b)) = Z at h ⊢
  exact h

/-- Padded on the right to 128 columns. -/
theorem e12 : (V (F := Ideal) m c main_call0_v12 : S512x128.Idx → EReal)
    = pad S512x128 ![0, 0] ![0, 63] ![0, 0] (V (F := Ideal) m c main_call0_v11 : S512x65.Idx → EReal)
        (V (F := Ideal) m c main_call0_call0_v0 : S_.Idx → EReal) pads_S512x65_S512x128_000_0630 h_S_ :=
  (aligned0.binary_at (fun b => m (c, b)) 18 rfl (by decide) (by decide) (by decide)).trans rfl

end Cert.KernelIdeal.HostLine

end
-- ==== Proof.Prologue.lean ====
import proofs.«173019_g88819923681710_cont_sun_c4_88_2_alg».proof.Proof.Gen.KernelIdeal.Frame
import proofs.«173019_g88819923681710_cont_sun_c4_88_2_alg».proof.Proof.LibScatterSet
import proofs.«173019_g88819923681710_cont_sun_c4_88_2_alg».proof.Proof.LibScatterKeep
import proofs.«173019_g88819923681710_cont_sun_c4_88_2_alg».proof.Proof.LibPad
import proofs.«173019_g88819923681710_cont_sun_c4_88_2_alg».proof.Proof.HostLine
import Idealize.ShloMosaic.Lib.StableHlo.Run
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Prologue

open Cert.KernelIdeal Cert.KernelIdeal.Gen Idealize.ShloMosaic Idealize.ShloMosaic.ValueIdx
open Idealize.ShloMosaic.StableHlo Idealize.ShloMosaic.TcCoe

variable (m : (ℓ : Loc nD τ sig) → Buf (Elt Ideal) ℓ) (c : Dev nD)

/-! ## The argument arrays as launched, at their literal index types -/

/-- Node features `[100000, 128, 1, 4]`. -/
abbrev E : S100000x128x1x4.Idx → EReal := m ((c : Thread nD τ).loc main_arg0)
/-- Head weights `[3, 128, 1]`. -/
abbrev Wl : S3x128x1.Idx → EReal := m ((c : Thread nD τ).loc main_arg1)
/-- Head biases `[3, 1]`. -/
abbrev bl : S3x1.Idx → EReal := m ((c : Thread nD τ).loc main_arg2)
/-- First-layer weights `[128, 64]`. -/
abbrev W1 : S128x64.Idx → EReal := m ((c : Thread nD τ).loc main_arg3)
/-- First-layer bias `[64]`. -/
abbrev b1 : S64.Idx → EReal := m ((c : Thread nD τ).loc main_arg4)
/-- Second-layer bias `[1]`. -/
abbrev b2 : S1.Idx → EReal := m ((c : Thread nD τ).loc main_arg6)

/-! ## The buffers the host writes before the launch, as terms over the argument arrays -/

/-- The flattened features are a reshape of `E`. -/
theorem v0_eq : (V (F := Ideal) m c main_call0_v0 : S100000x512.Idx → EReal)
    = shapeCast S100000x512 (E m c) shapeCasts_S100000x128x1x4_S100000x512 := by
  dsimp only [Gen.V, Gen.hostOps0]; after_results; rfl

/-- The hidden bias row is a reshape of `b1`. -/
theorem v17_eq : (V (F := Ideal) m c main_call0_v17 : S1x64.Idx → EReal)
    = shapeCast S1x64 (b1 m c) shapeCasts_S64_S1x64 := by
  dsimp only [Gen.V, Gen.hostOps0]; after_results; rfl

/-- The scalar bias is the sum of `bl` over both its axes, from zero, plus `b2`'s one entry, reshaped to `[1, 1]`. -/
theorem v16_eq : (V (F := Ideal) m c main_call0_v16 : S1x1.Idx → EReal)
    = shapeCast S1x1 (addf (F := Ideal) (φ := .f32) (Host.reduceAdd (F := Ideal) (φ := .f32) (bl m c) (constant (F := Ideal) S_ .f32 0x00000000#32) reducesTo_S3x1_S_d0_1 h_S_)
        (shapeCast S_ (b2 m c) shapeCasts_S1_S_)) shapeCasts_S_S1x1 := by
  dsimp only [Gen.V, Gen.hostOps0]; after_results; rfl

/-! ## Read at an index -/

/-- The features, flattened: row `n`, column `4·ch + i` is `E (n, ch, 0, i)`. -/
theorem feat (n : Fin 100000) (k : Fin 512) (ch : Fin 128) (i : Fin 4) (hk : k.val = 4 * ch.val + i.val) :
    (V (F := Ideal) m c main_call0_v0 : S100000x512.Idx → EReal) (ix2 n k) = E m c (ix4 n ch (0 : Fin 1) i) := by
  rw [v0_eq]
  refine shapeCast_apply (s := S100000x128x1x4) (t := S100000x512) _ _ _ _ ?_
  rw [Shape.rowMajor_val_four, Shape.rowMajor_val_two]
  show ((n.val * 128 + ch.val) * 1 + 0) * 4 + i.val = n.val * 512 + k.val
  omega

/-- The hidden layer's bias as a row: entry `(0, h)` is `b1 h`. -/
theorem hidb (h : Fin 64) :
    (V (F := Ideal) m c main_call0_v17 : S1x64.Idx → EReal) (ix2 (0 : Fin 1) h) = b1 m c (ix1 h) := by
  rw [v17_eq]
  refine shapeCast_apply (s := S64) (t := S1x64) _ _ _ _ ?_
  rw [Shape.rowMajor_val_one, Shape.rowMajor_val_two]
  show h.val = 0 * 64 + h.val
  omega

/-- The scalar bias: the three head biases summed, plus the perceptron's output bias. -/
theorem bias :
    (V (F := Ideal) m c main_call0_v16 : S1x1.Idx → EReal) (ix2 (0 : Fin 1) (0 : Fin 1))
      = (bl m c (ix2 (0 : Fin 3) (0 : Fin 1)) + bl m c (ix2 (1 : Fin 3) (0 : Fin 1)) + bl m c (ix2 (2 : Fin 3) (0 : Fin 1)))
        + b2 m c (ix1 (0 : Fin 1)) := by
  rw [v16_eq]
  have hz : ∀ k : S_.Idx, (S_.rowMajor k).val = 0 := fun k => Shape.rowMajorPi_zero _ _
  rw [shapeCast_apply (s := S_) (t := S1x1) _ shapeCasts_S_S1x1 (ix2 (0 : Fin 1) (0 : Fin 1)) ix0 (by
    rw [hz, Shape.rowMajor_val_two]; rfl)]
  rw [addf_apply, hostReduceAdd_apply, Ideal.hostReduceAdd_total _ (fun b => b.elim0), constant_apply,
    Ideal.ofBits_zero_f32, zero_add, sum_idx2, Fin.sum_univ_three]
  simp only [Fin.sum_univ_one]
  rw [shapeCast_apply (s := S1) (t := S_) _ shapeCasts_S1_S_ ix0 (ix1 (0 : Fin 1)) (by rw [hz, Shape.rowMajor_val_one]; rfl)]

/-! ## The two scatters: where each update lands -/

/-- The one-entry index vectors of the two scatters: the constants 0 and 3. -/
def idx0 : IVec S1 32 := broadcastInDim S1 ![] bcast_S_S1 (constantI S_ 32 0#32)
def idx3 : IVec S1 32 := broadcastInDim S1 ![] bcast_S_S1 (constantI S_ 32 3#32)

/-- Where update `(ch, i)` of the first scatter lands: column `i` of row `ch`. -/
def g1 (j : S128x3.Idx) : S128x4.Idx := ix2 (j 0) (Fin.castSucc (j 1))

/-- The first scatter's window starts at row 0, column 0: the index vector's one entry is 0 and names the column axis. -/
theorem start1 (j : S128x3.Idx) (a : Fin 2) : scatter_S128x4_S1_S128x3_01_n_1_0.start j idx0 a = 0 := by
  unfold ScatterDims.start
  split
  · rfl
  · rfl

/-- Its window coordinates are the update's own two coordinates. -/
theorem window1_0 (j : S128x3.Idx) : scatter_S128x4_S1_S128x3_01_n_1_0.window j (0 : Fin 2) = (j 0).val := rfl
theorem window1_1 (j : S128x3.Idx) : scatter_S128x4_S1_S128x3_01_n_1_0.window j (1 : Fin 2) = (j 1).val := rfl

/-- Every update of the first scatter lands inside the operand, at `g1`. -/
theorem land1 (j : S128x3.Idx) : scatter_S128x4_S1_S128x3_01_n_1_0.resultIdx? j idx0 = some (g1 j) := by
  have hb : ∀ a : Fin 2, 0 ≤ scatter_S128x4_S1_S128x3_01_n_1_0.start j idx0 a + scatter_S128x4_S1_S128x3_01_n_1_0.window j a
      ∧ scatter_S128x4_S1_S128x3_01_n_1_0.start j idx0 a + scatter_S128x4_S1_S128x3_01_n_1_0.window j a < S128x4.size a := by
    intro a
    rw [start1]
    match a with
    | ⟨0, _⟩ => rw [show (⟨0, _⟩ : Fin 2) = 0 from rfl, window1_0]; have : (j 0).val < 128 := (j 0).isLt; show _ ∧ _ < ((128 : Nat) : Int); omega
    | ⟨1, _⟩ => rw [show (⟨1, _⟩ : Fin 2) = 1 from rfl, window1_1]; have : (j 1).val < 3 := (j 1).isLt; show _ ∧ _ < ((4 : Nat) : Int); omega
  unfold ScatterDims.resultIdx?
  rw [dif_pos hb]
  refine congrArg some (funext fun a => Fin.ext ?_)
  show (scatter_S128x4_S1_S128x3_01_n_1_0.start j idx0 a + scatter_S128x4_S1_S128x3_01_n_1_0.window j a).toNat = (g1 j a).val
  rw [start1]
  match a with
  | ⟨0, _⟩ => rw [show (⟨0, _⟩ : Fin 2) = 0 from rfl, window1_0]; show _ = (j 0).val; omega
  | ⟨1, _⟩ => rw [show (⟨1, _⟩ : Fin 2) = 1 from rfl, window1_1]; show _ = (j 1).val; omega

/-- Where update `(ch, h)` of the second scatter lands: slab 3 of row `ch`, column `h`. -/
def g2 (j : S128x64.Idx) : S128x4x64.Idx := ix3 (j 0) (3 : Fin 4) (j 1)

/-- The second scatter's window starts at slab 3 (the index vector's one entry, on the middle axis) and at 0 on the other two axes. -/
theorem start2_0 (j : S128x64.Idx) : scatter_S128x4x64_S1_S128x64_01_1_1_0.start j idx3 (0 : Fin 3) = 0 := rfl
theorem start2_1 (j : S128x64.Idx) : scatter_S128x4x64_S1_S128x64_01_1_1_0.start j idx3 (1 : Fin 3) = 3 := rfl
theorem start2_2 (j : S128x64.Idx) : scatter_S128x4x64_S1_S128x64_01_1_1_0.start j idx3 (2 : Fin 3) = 0 := rfl
/-- Its window coordinates: the update's row on axis 0, nothing on the inserted middle axis, the update's column on axis 2. -/
theorem window2_0 (j : S128x64.Idx) : scatter_S128x4x64_S1_S128x64_01_1_1_0.window j (0 : Fin 3) = (j 0).val := rfl
theorem window2_1 (j : S128x64.Idx) : scatter_S128x4x64_S1_S128x64_01_1_1_0.window j (1 : Fin 3) = 0 := rfl
theorem window2_2 (j : S128x64.Idx) : scatter_S128x4x64_S1_S128x64_01_1_1_0.window j (2 : Fin 3) = (j 1).val := rfl

/-- Every update of the second scatter lands inside the operand, at `g2`. -/
theorem land2 (j : S128x64.Idx) : scatter_S128x4x64_S1_S128x64_01_1_1_0.resultIdx? j idx3 = some (g2 j) := by
  have h0 : (j 0).val < 128 := (j 0).isLt
  have h1 : (j 1).val < 64 := (j 1).isLt
  have hb : ∀ a : Fin 3, 0 ≤ scatter_S128x4x64_S1_S128x64_01_1_1_0.start j idx3 a + scatter_S128x4x64_S1_S128x64_01_1_1_0.window j a
      ∧ scatter_S128x4x64_S1_S128x64_01_1_1_0.start j idx3 a + scatter_S128x4x64_S1_S128x64_01_1_1_0.window j a < S128x4x64.size a := by
    intro a
    match a with
    | ⟨0, _⟩ => rw [show (⟨0, _⟩ : Fin 3) = 0 from rfl, start2_0, window2_0]; show _ ∧ _ < ((128 : Nat) : Int); omega
    | ⟨1, _⟩ => rw [show (⟨1, _⟩ : Fin 3) = 1 from rfl, start2_1, window2_1]; show _ ∧ _ < ((4 : Nat) : Int); omega
    | ⟨2, _⟩ => rw [show (⟨2, _⟩ : Fin 3) = 2 from rfl, start2_2, window2_2]; show _ ∧ _ < ((64 : Nat) : Int); omega
  unfold ScatterDims.resultIdx?
  rw [dif_pos hb]
  refine congrArg some (funext fun a => Fin.ext ?_)
  show (scatter_S128x4x64_S1_S128x64_01_1_1_0.start j idx3 a + scatter_S128x4x64_S1_S128x64_01_1_1_0.window j a).toNat = (g2 j a).val
  match a with
  | ⟨0, _⟩ => rw [show (⟨0, _⟩ : Fin 3) = 0 from rfl, start2_0, window2_0]; show _ = (j 0).val; omega
  | ⟨1, _⟩ => rw [show (⟨1, _⟩ : Fin 3) = 1 from rfl, start2_1, window2_1]; show _ = 3; omega
  | ⟨2, _⟩ => rw [show (⟨2, _⟩ : Fin 3) = 2 from rfl, start2_2, window2_2]; show _ = (j 1).val; omega

/-! ## The weight slab's stages, over any head weights `wl` and first-layer weights `w1` -/

section Stages
variable (wl : S3x128x1.Idx → EReal) (w1 : S128x64.Idx → EReal)

/-- The scalar zero every zero-filled array is broadcast from. -/
def zero0 : S_.Idx → EReal := constant (F := Ideal) S_ .f32 0x00000000#32
/-- The head weights with their unit axis dropped, transposed to `[128, 3]`. -/
def wlT : S128x3.Idx → EReal :=
  transpose S128x3 [1, 0] (shapeCast S3x128 wl shapeCasts_S3x128x1_S3x128) transposes_S3x128_S128x3_1_0
/-- Zeros `[128, 4]` with columns 0..2 set to the transposed head weights. -/
def a5 : S128x4.Idx → EReal :=
  Host.scatter scatter_S128x4_S1_S128x3_01_n_1_0 (fun _ b => b) (broadcastInDim S128x4 ![] bcast_S_S128x4 zero0) idx0 (wlT wl)
/-- Zeros `[128, 4, 64]` with the slab at middle index 3 set to the first-layer weights. -/
def a8 : S128x4x64.Idx → EReal :=
  Host.scatter scatter_S128x4x64_S1_S128x64_01_1_1_0 (fun _ b => b) (broadcastInDim S128x4x64 ![] bcast_S_S128x4x64 zero0) idx3 w1
/-- The two, flattened to 512 rows and laid side by side: `[512, 65]`. -/
def a11 : S512x65.Idx → EReal :=
  concatenate S512x65 1 [⟨S512x1, shapeCast S512x1 (a5 wl) shapeCasts_S128x4_S512x1⟩,
    ⟨S512x64, shapeCast S512x64 (a8 w1) shapeCasts_S128x4x64_S512x64⟩] concatenates_S512x1_S512x64_S512x65_d1
/-- Padded on the right to `[512, 128]`. -/
def a12 : S512x128.Idx → EReal :=
  pad S512x128 ![0, 0] ![0, 63] ![0, 0] (a11 wl w1) (sitofp (F := Ideal) .f32 (constantI S_ 32 0#32)) pads_S512x65_S512x128_000_0630 h_S_

/-- Different updates land on different entries. -/
theorem g1_inj : Function.Injective g1 := by
  intro j j' h
  have h0 : (j 0).val = (j' 0).val := congrArg (fun x : S128x4.Idx => (x 0).val) h
  have h1 : (j 1).val = (j' 1).val := congrArg (fun x : S128x4.Idx => (x 1).val) h
  rw [eq_ix2 j, eq_ix2 j']
  have e0 : j 0 = j' 0 := Fin.ext h0
  have e1 : j 1 = j' 1 := Fin.ext h1
  rw [e0, e1]

/-- Different updates land on different entries. -/
theorem g2_inj : Function.Injective g2 := by
  intro j j' h
  have h0 : (j 0).val = (j' 0).val := congrArg (fun x : S128x4x64.Idx => (x 0).val) h
  have h2 : (j 1).val = (j' 1).val := congrArg (fun x : S128x4x64.Idx => (x 2).val) h
  rw [eq_ix2 j, eq_ix2 j']
  have e0 : j 0 = j' 0 := Fin.ext h0
  have e1 : j 1 = j' 1 := Fin.ext h2
  rw [e0, e1]

/-- The zero scalar is the extended real 0. -/
theorem zero0_apply (k : S_.Idx) : zero0 k = 0 := by
  unfold zero0; rw [constant_apply, Ideal.ofBits_zero_f32]

/-- Entry `(ch, i)` of the transposed head weights is `wl (i, ch, 0)`. -/
theorem wlT_apply (ch : Fin 128) (i : Fin 3) : wlT wl (ix2 ch i) = wl (ix3 i ch (0 : Fin 1)) := by
  unfold wlT
  rw [transpose_ix2_apply]
  refine shapeCast_apply (s := S3x128x1) (t := S3x128) _ _ _ _ ?_
  rw [Shape.rowMajor_val_three, Shape.rowMajor_val_two]
  show (i.val * 128 + ch.val) * 1 + 0 = i.val * 128 + ch.val
  omega

/-- Columns 0..2 of the `[128, 4]` array hold the head weights. -/
theorem a5_head (ch : Fin 128) (i : Fin 3) : a5 wl (ix2 ch (Fin.castSucc i)) = wl (ix3 i ch (0 : Fin 1)) := by
  unfold a5
  refine (ScatterSet.scatter_set_apply scatter_S128x4_S1_S128x3_01_n_1_0 _ idx0 (wlT wl) g1 land1 g1_inj (ix2 ch i)).trans ?_
  exact wlT_apply wl ch i

/-- Column 3 of the `[128, 4]` array is zero. -/
theorem a5_zero (ch : Fin 128) : a5 wl (ix2 ch (3 : Fin 4)) = 0 := by
  unfold a5
  rw [ScatterKeep.scatter_apply_of_ne scatter_S128x4_S1_S128x3_01_n_1_0 _ _ idx0 (wlT wl) g1 land1 (ix2 ch (3 : Fin 4))
    (fun j h => by
      have h1 : (g1 j 1).val = 3 := congrArg (fun x : S128x4.Idx => (x 1).val) h
      have : (j 1).val < 3 := (j 1).isLt
      have e : (g1 j 1).val = (j 1).val := rfl
      omega)]
  rw [broadcastInDim_scalar_apply, zero0_apply]

/-- Slab 3 of the `[128, 4, 64]` array holds the first-layer weights. -/
theorem a8_hid (ch : Fin 128) (h : Fin 64) : a8 w1 (ix3 ch (3 : Fin 4) h) = w1 (ix2 ch h) := by
  unfold a8
  exact ScatterSet.scatter_set_apply scatter_S128x4x64_S1_S128x64_01_1_1_0 _ idx3 w1 g2 land2 g2_inj (ix2 ch h)

/-- Slabs 0..2 of the `[128, 4, 64]` array are zero. -/
theorem a8_zero (ch : Fin 128) (i : Fin 3) (h : Fin 64) : a8 w1 (ix3 ch (Fin.castSucc i) h) = 0 := by
  unfold a8
  rw [ScatterKeep.scatter_apply_of_ne scatter_S128x4x64_S1_S128x64_01_1_1_0 _ _ idx3 w1 g2 land2 (ix3 ch (Fin.castSucc i) h)
    (fun j hj => by
      have h1 : (g2 j 1).val = (Fin.castSucc i).val := congrArg (fun x : S128x4x64.Idx => (x 1).val) hj
      have : i.val < 3 := i.isLt
      have e : (g2 j 1).val = 3 := rfl
      have e' : (Fin.castSucc i).val = i.val := rfl
      omega)]
  rw [broadcastInDim_scalar_apply, zero0_apply]

end Stages

section Reads
variable (wl : S3x128x1.Idx → EReal) (w1 : S128x64.Idx → EReal)

/-- Column 0 of the slab at row `4·ch + i` is entry `(ch, i)` of the `[128, 4]` array. -/
theorem a12_col0 (k : Fin 512) (ch : Fin 128) (i : Fin 4) (hk : k.val = 4 * ch.val + i.val) :
    a12 wl w1 (ix2 k (0 : Fin 128)) = a5 wl (ix2 ch i) := by
  unfold a12
  rw [LibPad.pad_apply_of_mem (s := S512x65) (t := S512x128) _ _ _ (a11 wl w1) _ pads_S512x65_S512x128_000_0630 h_S_
    (ix2 k (0 : Fin 128)) (ix2 k (0 : Fin 65))
    (fun a => match a with
      | ⟨0, _⟩ => by show k.val = 0 + k.val * (0 + 1); omega
      | ⟨1, _⟩ => by show 0 = 0 + 0 * (0 + 1); omega)]
  unfold a11
  rw [concatenate_pair_apply_left (t := S512x65) (s₁ := S512x1) (s₂ := S512x64) 1 _ _
    concatenates_S512x1_S512x64_S512x65_d1 (ix2 k (0 : Fin 65)) rfl (ix2 k (0 : Fin 1))
    (fun b => match b with | ⟨0, _⟩ => rfl | ⟨1, _⟩ => rfl)]
  refine shapeCast_apply (s := S128x4) (t := S512x1) _ _ _ _ ?_
  rw [Shape.rowMajor_val_two, Shape.rowMajor_val_two]
  show ch.val * 4 + i.val = k.val * 1 + 0
  omega

/-- Column `1 + h` of the slab at row `4·ch + i` is entry `(ch, i, h)` of the `[128, 4, 64]` array. -/
theorem a12_colh (k : Fin 512) (ch : Fin 128) (i : Fin 4) (h : Fin 64) (q : Fin 128)
    (hk : k.val = 4 * ch.val + i.val) (hq : q.val = 1 + h.val) :
    a12 wl w1 (ix2 k q) = a8 w1 (ix3 ch i h) := by
  unfold a12
  have hq65 : q.val < 65 := by have := h.isLt; omega
  rw [LibPad.pad_apply_of_mem (s := S512x65) (t := S512x128) _ _ _ (a11 wl w1) _ pads_S512x65_S512x128_000_0630 h_S_
    (ix2 k q) (ix2 k (⟨q.val, hq65⟩ : Fin 65))
    (fun a => match a with
      | ⟨0, _⟩ => by show k.val = 0 + k.val * (0 + 1); omega
      | ⟨1, _⟩ => by show q.val = 0 + q.val * (0 + 1); omega)]
  unfold a11
  rw [concatenate_pair_apply_right (t := S512x65) (s₁ := S512x1) (s₂ := S512x64) 1 _ _
    concatenates_S512x1_S512x64_S512x65_d1 (ix2 k (⟨q.val, hq65⟩ : Fin 65)) rfl rfl (ix2 k h)
    (fun b hb => match b, hb with
      | ⟨0, _⟩, _ => rfl
      | ⟨1, _⟩, hb => absurd rfl hb)
    (by show h.val + 1 = q.val; omega)]
  refine shapeCast_apply (s := S128x4x64) (t := S512x64) _ _ _ _ ?_
  rw [Shape.rowMajor_val_three, Shape.rowMajor_val_two]
  show (ch.val * 4 + i.val) * 64 + h.val = k.val * 64 + h.val
  omega

end Reads

/-! ## The weight slab as the region finds it -/

/-- The zero-filled `[128, 4]` array. -/
theorem l1 : (V (F := Ideal) m c main_call0_v1 : S128x4.Idx → EReal) = broadcastInDim S128x4 ![] bcast_S_S128x4 zero0 := by
  dsimp only [Gen.V, Gen.hostOps0]; after_results; rfl

/-- The first scatter's index vector. -/
theorem l4 : (V (F := Ideal) m c main_call0_v4 : IVec S1 32) = idx0 := by
  dsimp only [Gen.V, Gen.hostOps0]; after_results; rfl

/-- The transposed head weights. -/
theorem l3 : (V (F := Ideal) m c main_call0_v3 : S128x3.Idx → EReal) = wlT (Wl m c) := by
  dsimp only [Gen.V, Gen.hostOps0]; after_results; rfl

/-- The zero-filled `[128, 4, 64]` array. -/
theorem l6 : (V (F := Ideal) m c main_call0_v6 : S128x4x64.Idx → EReal) = broadcastInDim S128x4x64 ![] bcast_S_S128x4x64 zero0 := by
  dsimp only [Gen.V, Gen.hostOps0]; after_results; rfl

/-- The second scatter's index vector. -/
theorem l7 : (V (F := Ideal) m c main_call0_v7 : IVec S1 32) = idx3 := by
  dsimp only [Gen.V, Gen.hostOps0]; after_results; rfl

/-- The padding value: the integer 0 converted. -/
theorem lc : (V (F := Ideal) m c main_call0_call0_v0 : S_.Idx → EReal) = sitofp (F := Ideal) .f32 (constantI S_ 32 0#32) := by
  dsimp only [Gen.V, Gen.hostOps0]; after_results; rfl

/-- The slab the kernel is launched on is the padded concatenation of the two scattered arrays. -/
theorem v12_eq : (V (F := Ideal) m c main_call0_v12 : S512x128.Idx → EReal) = a12 (Wl m c) (W1 m c) := by
  rw [HostLine.e12 m c, HostLine.e11 m c, HostLine.e9 m c, HostLine.e10 m c, HostLine.e5 m c, HostLine.e8 m c,
    l1, l4, l3, l6, l7, lc]
  rfl

/-- Row `4·ch + i`, `i < 3`, column 0: head `i`'s weight for channel `ch`. -/
theorem wall0 (k : Fin 512) (ch : Fin 128) (i : Fin 3) (hk : k.val = 4 * ch.val + i.val) :
    (V (F := Ideal) m c main_call0_v12 : S512x128.Idx → EReal) (ix2 k (0 : Fin 128)) = Wl m c (ix3 i ch (0 : Fin 1)) := by
  rw [v12_eq]
  exact (a12_col0 _ _ k ch (Fin.castSucc i) hk).trans (a5_head _ ch i)

/-- Row `4·ch + 3`, column 0: zero. -/
theorem wall0z (k : Fin 512) (ch : Fin 128) (hk : k.val = 4 * ch.val + 3) :
    (V (F := Ideal) m c main_call0_v12 : S512x128.Idx → EReal) (ix2 k (0 : Fin 128)) = (0 : EReal) := by
  rw [v12_eq]
  exact (a12_col0 _ _ k ch (3 : Fin 4) hk).trans (a5_zero _ ch)

/-- Row `4·ch + 3`, column `1 + h`: the first layer's weight from channel `ch` to hidden unit `h`. -/
theorem wallh (k : Fin 512) (ch : Fin 128) (h : Fin 64) (q : Fin 128) (hk : k.val = 4 * ch.val + 3) (hq : q.val = 1 + h.val) :
    (V (F := Ideal) m c main_call0_v12 : S512x128.Idx → EReal) (ix2 k q) = W1 m c (ix2 ch h) := by
  rw [v12_eq]
  exact (a12_colh _ _ k ch (3 : Fin 4) h q hk hq).trans (a8_hid _ ch h)

/-- Row `4·ch + i`, `i < 3`, column `1 + h`: zero. -/
theorem wallhz (k : Fin 512) (ch : Fin 128) (i : Fin 3) (h : Fin 64) (q : Fin 128) (hk : k.val = 4 * ch.val + i.val)
    (hq : q.val = 1 + h.val) :
    (V (F := Ideal) m c main_call0_v12 : S512x128.Idx → EReal) (ix2 k q) = (0 : EReal) := by
  rw [v12_eq]
  exact (a12_colh _ _ k ch (Fin.castSucc i) h q hk hq).trans (a8_zero _ ch i h)

end Cert.KernelIdeal.Prologue
end
-- ==== Proof.Spec.lean ====
/-
  The per-node invariant readout, as ONE function of the seven argument arrays, index by index, on the extended
  reals. Node `n` has features `E (n, c, 0, i)`, channel `c < 128`, slot `i < 4`. Slots 0, 1, 2 each feed a
  linear head: `head i n = ∑ c, E (n, c, 0, i) · Wl (i, c, 0)`, plus its bias `bl (i, 0)`. Slot 3 feeds a two-layer
  perceptron: the hidden unit `h < 64` is `hidden h n = ∑ c, E (n, c, 0, 3) · W1 (c, h) + b1 h`, passed through
  `silu x = x · logistic x`, and the second layer sums `silu (hidden h n) · W2 (h, 0)` over `h` and adds `b2 0`.
  The readout is the sum of the four: `out n`.
  Both programs are shown to end with this function of their arguments; nothing here mentions a program.
-/
import Idealize.ShloMosaic.PureOps.Ideal
import Idealize.ShloMosaic.Lib.ValueIdx

noncomputable section

open scoped BigOperators

namespace Cert.Readout

open Idealize.ShloMosaic Idealize.ShloMosaic.ValueIdx

/-- The arrays' literal shapes: features, head weights, head biases, first layer, its bias, second layer, its
    bias, and the result. -/
abbrev SE : Shape := ⟨4, ![100000, 128, 1, 4]⟩
abbrev SWl : Shape := ⟨3, ![3, 128, 1]⟩
abbrev Sbl : Shape := ⟨2, ![3, 1]⟩
abbrev SW1 : Shape := ⟨2, ![128, 64]⟩
abbrev Sb1 : Shape := ⟨1, ![64]⟩
abbrev SW2 : Shape := ⟨2, ![64, 1]⟩
abbrev Sb2 : Shape := ⟨1, ![1]⟩
abbrev SOut : Shape := ⟨1, ![100000]⟩

variable (E : SE.Idx → EReal) (Wl : SWl.Idx → EReal) (bl : Sbl.Idx → EReal) (W1 : SW1.Idx → EReal)
  (b1 : Sb1.Idx → EReal) (W2 : SW2.Idx → EReal) (b2 : Sb2.Idx → EReal)

/-- Linear head `i` of node `n`, before its bias: slot `i` of the node's features against row `i` of `Wl`. -/
def head (i : Fin 3) (n : Fin 100000) : EReal :=
  ∑ c : Fin 128, E (ix4 n c (0 : Fin 1) (Fin.castSucc i)) * Wl (ix3 i c (0 : Fin 1))

/-- Hidden unit `h` of node `n`: slot 3 of the node's features against column `h` of `W1`, plus `b1 h`. -/
def hidden (h : Fin 64) (n : Fin 100000) : EReal :=
  (∑ c : Fin 128, E (ix4 n c (0 : Fin 1) (3 : Fin 4)) * W1 (ix2 c h)) + b1 (ix1 h)

/-- `silu x = x · logistic x`, with `logistic x = 1 / (1 + e⁻ˣ)` on the extended reals. -/
def silu (x : EReal) : EReal := x * Ideal.logistic x

/-- The perceptron's output for node `n`, before its bias. -/
def mlp (n : Fin 100000) : EReal := ∑ h : Fin 64, silu (hidden E W1 b1 h n) * W2 (ix2 h (0 : Fin 1))

/-- The readout of node `n`: the three biased heads and the biased perceptron, summed. -/
def out (n : Fin 100000) : EReal :=
  (head E Wl 0 n + bl (ix2 (0 : Fin 3) (0 : Fin 1))) + (head E Wl 1 n + bl (ix2 (1 : Fin 3) (0 : Fin 1)))
    + (head E Wl 2 n + bl (ix2 (2 : Fin 3) (0 : Fin 1))) + (mlp E W1 b1 W2 n + b2 (ix1 (0 : Fin 1)))

/-- The readout as an array. -/
def outArr : SOut.Idx → EReal := fun j => out E Wl bl W1 b1 W2 b2 (j 0)

end Cert.Readout

end
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.Algebra.lean ====
/-
  The kernel's arrangement of the readout is the specification's.

  The kernel flattens a node's 128 × 4 features to one row of 512 (entry `4·c + i` is channel `c`, slot `i`) and
  multiplies it by ONE combined weight of 512 rows: column 0 holds, on row `4·c + i`, the head weight `Wl (i, c, 0)` for
  the slots `i < 3` and zero for slot 3; column `1 + h` holds the first-layer weight `W1 (c, h)` on the rows of slot 3
  and zero on the others. A sum over the 512 rows is the double sum over channels and slots; the zero entries drop
  their terms (`x · 0 = 0` on every extended real), so column 0 of the product is the sum of the three heads and
  column `1 + h` the hidden unit's sum. What is left is a regrouping of a finite sum, which needs only that addition
  of extended reals is commutative and associative: no finiteness is used.
-/
import proofs.«173019_g88819923681710_cont_sun_c4_88_2_alg».proof.Proof.Spec
import proofs.«173019_g88819923681710_cont_sun_c4_88_2_alg».proof.Proof.LibRealEntries
import Mathlib.Tactic.Abel

noncomputable section

open scoped BigOperators

namespace Cert.Readout

open Idealize.ShloMosaic Idealize.ShloMosaic.ValueIdx

/-- The flattened features and the combined weight. -/
abbrev SFl : Shape := ⟨2, ![100000, 512]⟩
abbrev SWc : Shape := ⟨2, ![512, 128]⟩

/-- Row `4·p + q` of 512, from channel `p` and slot `q`. -/
def row (p : Fin 128) (q : Fin 4) : Fin 512 := ⟨4 * p.val + q.val, by have := p.isLt; have := q.isLt; omega⟩

/-- A sum over the 512 rows is the double sum over channels and slots. -/
theorem sum_rows (f : Fin 512 → EReal) : ∑ k, f k = ∑ p : Fin 128, ∑ q : Fin 4, f (row p q) := by
  have h := Cert.LibRealEntries.sum_fin_mul (M := EReal) (m := 128) (n := 4) f
  rw [h]
  refine Finset.sum_congr rfl fun p _ => Finset.sum_congr rfl fun q _ => congrArg f (Fin.ext ?_)
  show q.val + 4 * p.val = 4 * p.val + q.val
  omega

variable (E : SE.Idx → EReal) (Wl : SWl.Idx → EReal) (bl : Sbl.Idx → EReal) (W1 : SW1.Idx → EReal)
  (b1 : Sb1.Idx → EReal) (W2 : SW2.Idx → EReal) (b2 : Sb2.Idx → EReal)
  (Efl : SFl.Idx → EReal) (Wc : SWc.Idx → EReal)

/-- Column 0 of the product is the sum of the three heads. -/
theorem col0_eq
    (hfeat : ∀ (n : Fin 100000) (k : Fin 512) (ch : Fin 128) (i : Fin 4), k.val = 4 * ch.val + i.val →
      Efl (ix2 n k) = E (ix4 n ch (0 : Fin 1) i))
    (hw0 : ∀ (k : Fin 512) (ch : Fin 128) (i : Fin 3), k.val = 4 * ch.val + i.val →
      Wc (ix2 k (0 : Fin 128)) = Wl (ix3 i ch (0 : Fin 1)))
    (hw0z : ∀ (k : Fin 512) (ch : Fin 128), k.val = 4 * ch.val + 3 → Wc (ix2 k (0 : Fin 128)) = 0)
    (n : Fin 100000) :
    ∑ k : Fin 512, Efl (ix2 n k) * Wc (ix2 k (0 : Fin 128)) = head E Wl 0 n + head E Wl 1 n + head E Wl 2 n := by
  rw [sum_rows]
  have hp : ∀ p : Fin 128, ∑ q : Fin 4, Efl (ix2 n (row p q)) * Wc (ix2 (row p q) (0 : Fin 128))
      = E (ix4 n p (0 : Fin 1) (0 : Fin 4)) * Wl (ix3 (0 : Fin 3) p (0 : Fin 1))
        + E (ix4 n p (0 : Fin 1) (1 : Fin 4)) * Wl (ix3 (1 : Fin 3) p (0 : Fin 1))
        + E (ix4 n p (0 : Fin 1) (2 : Fin 4)) * Wl (ix3 (2 : Fin 3) p (0 : Fin 1)) := fun p => by
    rw [Fin.sum_univ_four, hfeat n (row p 0) p 0 rfl, hfeat n (row p 1) p 1 rfl, hfeat n (row p 2) p 2 rfl,
      hfeat n (row p 3) p 3 rfl, hw0 (row p 0) p 0 rfl, hw0 (row p 1) p 1 rfl, hw0 (row p 2) p 2 rfl,
      hw0z (row p 3) p rfl, mul_zero, add_zero]
  simp only [hp, Finset.sum_add_distrib]
  rfl

/-- Column `1 + h` of the product is the hidden unit's sum. -/
theorem colh_eq
    (hfeat : ∀ (n : Fin 100000) (k : Fin 512) (ch : Fin 128) (i : Fin 4), k.val = 4 * ch.val + i.val →
      Efl (ix2 n k) = E (ix4 n ch (0 : Fin 1) i))
    (hwh : ∀ (k : Fin 512) (ch : Fin 128) (h : Fin 64) (q : Fin 128), k.val = 4 * ch.val + 3 → q.val = 1 + h.val →
      Wc (ix2 k q) = W1 (ix2 ch h))
    (hwhz : ∀ (k : Fin 512) (ch : Fin 128) (i : Fin 3) (h : Fin 64) (q : Fin 128), k.val = 4 * ch.val + i.val →
      q.val = 1 + h.val → Wc (ix2 k q) = 0)
    (n : Fin 100000) (h : Fin 64) (q : Fin 128) (hq : q.val = 1 + h.val) :
    ∑ k : Fin 512, Efl (ix2 n k) * Wc (ix2 k q) = ∑ c : Fin 128, E (ix4 n c (0 : Fin 1) (3 : Fin 4)) * W1 (ix2 c h) := by
  rw [sum_rows]
  refine Finset.sum_congr rfl fun p _ => ?_
  rw [Fin.sum_univ_four, hwhz (row p 0) p 0 h q rfl hq, hwhz (row p 1) p 1 h q rfl hq, hwhz (row p 2) p 2 h q rfl hq,
    hwh (row p 3) p h q rfl hq, hfeat n (row p 3) p 3 rfl, mul_zero, mul_zero, mul_zero, zero_add, zero_add, zero_add]

/-- The kernel's arrangement at node `n` — column 0 of the product, plus the second layer over the `silu` of the
    columns `1 + h` with the hidden bias added, plus the folded scalar bias — is the readout. -/
theorem packed_eq_out
    (B1 : (⟨2, ![1, 64]⟩ : Shape).Idx → EReal) (Bs : (⟨2, ![1, 1]⟩ : Shape).Idx → EReal) (cl : Fin 64 → Fin 128)
    (hcl : ∀ h, (cl h).val = 1 + h.val)
    (hfeat : ∀ (n : Fin 100000) (k : Fin 512) (ch : Fin 128) (i : Fin 4), k.val = 4 * ch.val + i.val →
      Efl (ix2 n k) = E (ix4 n ch (0 : Fin 1) i))
    (hw0 : ∀ (k : Fin 512) (ch : Fin 128) (i : Fin 3), k.val = 4 * ch.val + i.val →
      Wc (ix2 k (0 : Fin 128)) = Wl (ix3 i ch (0 : Fin 1)))
    (hw0z : ∀ (k : Fin 512) (ch : Fin 128), k.val = 4 * ch.val + 3 → Wc (ix2 k (0 : Fin 128)) = 0)
    (hwh : ∀ (k : Fin 512) (ch : Fin 128) (h : Fin 64) (q : Fin 128), k.val = 4 * ch.val + 3 → q.val = 1 + h.val →
      Wc (ix2 k q) = W1 (ix2 ch h))
    (hwhz : ∀ (k : Fin 512) (ch : Fin 128) (i : Fin 3) (h : Fin 64) (q : Fin 128), k.val = 4 * ch.val + i.val →
      q.val = 1 + h.val → Wc (ix2 k q) = 0)
    (hb1 : ∀ h : Fin 64, B1 (ix2 (0 : Fin 1) h) = b1 (ix1 h))
    (hbias : Bs (ix2 (0 : Fin 1) (0 : Fin 1))
      = (bl (ix2 (0 : Fin 3) (0 : Fin 1)) + bl (ix2 (1 : Fin 3) (0 : Fin 1)) + bl (ix2 (2 : Fin 3) (0 : Fin 1))) + b2 (ix1 (0 : Fin 1)))
    (n : Fin 100000) :
    ((∑ k : Fin 512, Efl (ix2 n k) * Wc (ix2 k (0 : Fin 128)))
      + ∑ h : Fin 64, silu ((∑ k : Fin 512, Efl (ix2 n k) * Wc (ix2 k (cl h))) + B1 (ix2 (0 : Fin 1) h)) * W2 (ix2 h (0 : Fin 1)))
      + Bs (ix2 (0 : Fin 1) (0 : Fin 1))
    = out E Wl bl W1 b1 W2 b2 n := by
  rw [col0_eq E Wl Efl Wc hfeat hw0 hw0z n, hbias]
  have hm : (∑ h : Fin 64, silu ((∑ k : Fin 512, Efl (ix2 n k) * Wc (ix2 k (cl h))) + B1 (ix2 (0 : Fin 1) h)) * W2 (ix2 h (0 : Fin 1)))
      = mlp E W1 b1 W2 n := by
    unfold mlp hidden
    refine Finset.sum_congr rfl fun h _ => ?_
    rw [colh_eq E W1 Efl Wc hfeat hwh hwhz n h (cl h) (hcl h), hb1 h]
  rw [hm]
  unfold out
  abel

end Cert.Readout

end
-- ==== Proof.Bridge.lean ====
/-
  The idealized kernel's result array is the specification of the program's arguments.

  `Value.G` is the readout over the arrays the region is launched on: the flattened features, the combined weight,
  the hidden bias row and the folded scalar bias, which the host operations before the region build from the
  arguments. Read at coordinates (the prologue's lemmas) those arrays are exactly what the packed arrangement asks
  for: row `4·c + i` of the flattened features is channel `c`, slot `i`; column 0 of the combined weight holds the
  head weights on the slots `i < 3` and zero on slot 3; column `1 + h` holds the first layer on slot 3 and zero
  elsewhere; the folded bias is the three head biases plus the perceptron's. The regrouping is `packed_eq_out`.
-/
import proofs.«173019_g88819923681710_cont_sun_c4_88_2_alg».proof.Proof.ValueI
import proofs.«173019_g88819923681710_cont_sun_c4_88_2_alg».proof.Proof.Prologue
import proofs.«173019_g88819923681710_cont_sun_c4_88_2_alg».proof.Proof.Algebra

noncomputable section

namespace Cert.KernelIdeal.Bridge

open Cert.KernelIdeal Cert.KernelIdeal.Gen Cert.KernelIdeal.Value
open Idealize.ShloMosaic Idealize.ShloMosaic.TcCoe Idealize.ShloMosaic.ValueIdx Idealize.SL.Sem

variable (m : (ℓ : Loc nD τ sig) → Buf (Elt Ideal) ℓ)

/-- The kernel's result array is the readout of its seven arguments. -/
theorem G_eq_out (c : Dev nD) :
    G m c = Cert.Readout.outArr (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  funext j
  have hW2 : W2 m c = m ((c.tc : Thread nD τ).loc main_arg5) := V_main_arg5 m c
  unfold G nodeVal Cert.Readout.outArr
  rw [hW2]
  exact Cert.Readout.packed_eq_out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))
    (Efl m c) (Wc m c) (B1 m c) (Bs m c) Cert.KernelIdeal.Pay.col (fun _ => rfl)
    (Cert.KernelIdeal.Prologue.feat m c) (Cert.KernelIdeal.Prologue.wall0 m c) (Cert.KernelIdeal.Prologue.wall0z m c)
    (Cert.KernelIdeal.Prologue.wallh m c) (Cert.KernelIdeal.Prologue.wallhz m c) (Cert.KernelIdeal.Prologue.hidb m c)
    (Cert.KernelIdeal.Prologue.bias m c) (j 0)

end Cert.KernelIdeal.Bridge

end
-- ==== Proof.RefValue.lean ====
/-
  The reference program's result is the per-node readout of `Cert.Readout`.

  The program computes, for each of the slots 0, 1, 2 of the node features, the product of that slot (a matrix of
  nodes by channels) with one row of the head weights, plus that head's bias; for slot 3 a two-layer perceptron
  whose activation is written out as `x · (1 / (1 + e⁻ˣ))`; it stacks the four columns so obtained along a new
  leading axis, sums over that axis starting from zero, and drops the trailing axis of extent one.

  Read index by index on the extended reals this is the specification term for term. The proof follows the
  program: a slice and a change of shape only move an index (the coordinate equations are arithmetic on
  `n · 128 + c`); a contraction is the sum over the contracted coordinate; the written-out quotient is
  `Ideal.logistic` by definition, since the word `0x3F800000` denotes one; each row of a stack is the piece it was
  built from; and the sum over the four rows from zero is the four terms added in order, which is how the
  specification writes them. Only `0 + x = x` is used of the arithmetic: no distributivity and no finiteness.
-/
import proofs.«173019_g88819923681710_cont_sun_c4_88_2_alg».proof.Proof.Gen.ReferenceIdeal.Read
import proofs.«173019_g88819923681710_cont_sun_c4_88_2_alg».proof.Proof.Spec
import Idealize.ShloMosaic.Lib.IdealHost

noncomputable section

open scoped BigOperators

namespace Cert.RefReadout

open Cert.ReferenceIdeal Cert.ReferenceIdeal.Read Idealize.ShloMosaic Idealize.ShloMosaic.ValueIdx

variable (x0 : (⟨S100000x128x1x4, .f32⟩ : BufTy).Contents (Elt Ideal))
  (x1 : (⟨S3x128x1, .f32⟩ : BufTy).Contents (Elt Ideal))
  (x2 : (⟨S3x1, .f32⟩ : BufTy).Contents (Elt Ideal))
  (x3 : (⟨S128x64, .f32⟩ : BufTy).Contents (Elt Ideal))
  (x4 : (⟨S64, .f32⟩ : BufTy).Contents (Elt Ideal))
  (x5 : (⟨S64x1, .f32⟩ : BufTy).Contents (Elt Ideal))
  (x6 : (⟨S1, .f32⟩ : BufTy).Contents (Elt Ideal))

/-- Slot 0 of the features, flattened to a matrix of nodes by channels, read at `(n, c)`. -/
theorem feat0 (n : Fin 100000) (c : Fin 128) :
    val_main_v2 (F := Ideal) x0 (ix2 n c) = x0 (ix4 n c (0 : Fin 1) (0 : Fin 4)) := by
  rw [val_main_v2_apply, val_main_v1_apply, val_main_v0_apply]
  refine congrArg x0 (funext fun a => Fin.ext ?_)
  have hn := n.isLt; have hc := c.isLt
  match a with
  | ⟨0, _⟩ => show (((n.val * 128 + c.val) / 128 * 128 + (n.val * 128 + c.val) / 1 % 128) * 4 + 0) / 512 = n.val; omega
  | ⟨1, _⟩ => show (((n.val * 128 + c.val) / 128 * 128 + (n.val * 128 + c.val) / 1 % 128) * 4 + 0) / 4 % 128 = c.val; omega
  | ⟨2, _⟩ => rfl
  | ⟨3, _⟩ => show (((n.val * 128 + c.val) / 128 * 128 + (n.val * 128 + c.val) / 1 % 128) * 4 + 0) % 4 = 0; omega

/-- Slot 1 of the features, flattened to a matrix of nodes by channels, read at `(n, c)`. -/
theorem feat1 (n : Fin 100000) (c : Fin 128) :
    val_main_v12 (F := Ideal) x0 (ix2 n c) = x0 (ix4 n c (0 : Fin 1) (1 : Fin 4)) := by
  rw [val_main_v12_apply, val_main_v11_apply, val_main_v0_apply]
  refine congrArg x0 (funext fun a => Fin.ext ?_)
  have hn := n.isLt; have hc := c.isLt
  match a with
  | ⟨0, _⟩ => show (((n.val * 128 + c.val) / 128 * 128 + (n.val * 128 + c.val) / 1 % 128) * 4 + (1 + 0)) / 512 = n.val; omega
  | ⟨1, _⟩ => show (((n.val * 128 + c.val) / 128 * 128 + (n.val * 128 + c.val) / 1 % 128) * 4 + (1 + 0)) / 4 % 128 = c.val; omega
  | ⟨2, _⟩ => rfl
  | ⟨3, _⟩ => show (((n.val * 128 + c.val) / 128 * 128 + (n.val * 128 + c.val) / 1 % 128) * 4 + (1 + 0)) % 4 = 1; omega

/-- Slot 2 of the features, flattened to a matrix of nodes by channels, read at `(n, c)`. -/
theorem feat2 (n : Fin 100000) (c : Fin 128) :
    val_main_v22 (F := Ideal) x0 (ix2 n c) = x0 (ix4 n c (0 : Fin 1) (2 : Fin 4)) := by
  rw [val_main_v22_apply, val_main_v21_apply, val_main_v0_apply]
  refine congrArg x0 (funext fun a => Fin.ext ?_)
  have hn := n.isLt; have hc := c.isLt
  match a with
  | ⟨0, _⟩ => show (((n.val * 128 + c.val) / 128 * 128 + (n.val * 128 + c.val) / 1 % 128) * 4 + (2 + 0)) / 512 = n.val; omega
  | ⟨1, _⟩ => show (((n.val * 128 + c.val) / 128 * 128 + (n.val * 128 + c.val) / 1 % 128) * 4 + (2 + 0)) / 4 % 128 = c.val; omega
  | ⟨2, _⟩ => rfl
  | ⟨3, _⟩ => show (((n.val * 128 + c.val) / 128 * 128 + (n.val * 128 + c.val) / 1 % 128) * 4 + (2 + 0)) % 4 = 2; omega

/-- Slot 3 of the features, flattened to a matrix of nodes by channels, read at `(n, c)`. -/
theorem feat3 (n : Fin 100000) (c : Fin 128) :
    val_main_v36 (F := Ideal) x0 (ix2 n c) = x0 (ix4 n c (0 : Fin 1) (3 : Fin 4)) := by
  rw [val_main_v36_apply, val_main_v35_apply, val_main_v0_apply]
  refine congrArg x0 (funext fun a => Fin.ext ?_)
  have hn := n.isLt; have hc := c.isLt
  match a with
  | ⟨0, _⟩ => show (((n.val * 128 + c.val) / 128 * 128 + (n.val * 128 + c.val) / 1 % 128) * 4 + (3 + 0)) / 512 = n.val; omega
  | ⟨1, _⟩ => show (((n.val * 128 + c.val) / 128 * 128 + (n.val * 128 + c.val) / 1 % 128) * 4 + (3 + 0)) / 4 % 128 = c.val; omega
  | ⟨2, _⟩ => rfl
  | ⟨3, _⟩ => show (((n.val * 128 + c.val) / 128 * 128 + (n.val * 128 + c.val) / 1 % 128) * 4 + (3 + 0)) % 4 = 3; omega

/-- Row 0 of the head weights as a column, read at channel `c`. -/
theorem wl0 (c : Fin 128) :
    val_main_v4 (F := Ideal) x1 (ix2 c (0 : Fin 1)) = x1 (ix3 (0 : Fin 3) c (0 : Fin 1)) := by
  rw [val_main_v4_apply, val_main_v3_apply]
  refine congrArg x1 (funext fun a => Fin.ext ?_)
  have hc := c.isLt
  match a with
  | ⟨0, _⟩ => rfl
  | ⟨1, _⟩ => show (c.val * 1 + 0) / 1 % 128 = c.val; omega
  | ⟨2, _⟩ => rfl

/-- The bias of head 0, broadcast over the nodes. -/
theorem bias0 (n : Fin 100000) :
    val_main_v9 (F := Ideal) x2 (ix2 n (0 : Fin 1)) = x2 (ix2 (0 : Fin 3) (0 : Fin 1)) := by
  rw [val_main_v9_apply, val_main_v8_apply, val_main_v7_apply, val_main_v6_apply]
  exact congrArg x2 (funext fun a => Fin.ext (by match a with | ⟨0, _⟩ => rfl | ⟨1, _⟩ => rfl))

/-- Head 0 of node `n` with its bias. -/
theorem head0 (n : Fin 100000) :
    val_main_v10 (F := Ideal) x0 x1 x2 (ix2 n (0 : Fin 1))
      = Cert.Readout.head x0 x1 (0 : Fin 3) n + x2 (ix2 (0 : Fin 3) (0 : Fin 1)) := by
  rw [val_main_v10_apply, val_main_v5_apply, bias0, Ideal.addf_def]
  congr 1
  unfold Cert.Readout.head
  refine Finset.sum_congr rfl fun c _ => ?_
  rw [show lidx_main_v5 (ix2 n (0 : Fin 1)) c = ix2 n c from funext fun a => Fin.ext (by match a with | ⟨0, _⟩ => rfl | ⟨1, _⟩ => rfl),
    show ridx_main_v5 (ix2 n (0 : Fin 1)) c = ix2 c (0 : Fin 1) from funext fun a => Fin.ext (by match a with | ⟨0, _⟩ => rfl | ⟨1, _⟩ => rfl), feat0, wl0]
  rfl

/-- Row 1 of the head weights as a column, read at channel `c`. -/
theorem wl1 (c : Fin 128) :
    val_main_v14 (F := Ideal) x1 (ix2 c (0 : Fin 1)) = x1 (ix3 (1 : Fin 3) c (0 : Fin 1)) := by
  rw [val_main_v14_apply, val_main_v13_apply]
  refine congrArg x1 (funext fun a => Fin.ext ?_)
  have hc := c.isLt
  match a with
  | ⟨0, _⟩ => rfl
  | ⟨1, _⟩ => show (c.val * 1 + 0) / 1 % 128 = c.val; omega
  | ⟨2, _⟩ => rfl

/-- The bias of head 1, broadcast over the nodes. -/
theorem bias1 (n : Fin 100000) :
    val_main_v19 (F := Ideal) x2 (ix2 n (0 : Fin 1)) = x2 (ix2 (1 : Fin 3) (0 : Fin 1)) := by
  rw [val_main_v19_apply, val_main_v18_apply, val_main_v17_apply, val_main_v16_apply]
  exact congrArg x2 (funext fun a => Fin.ext (by match a with | ⟨0, _⟩ => rfl | ⟨1, _⟩ => rfl))

/-- Head 1 of node `n` with its bias. -/
theorem head1 (n : Fin 100000) :
    val_main_v20 (F := Ideal) x0 x1 x2 (ix2 n (0 : Fin 1))
      = Cert.Readout.head x0 x1 (1 : Fin 3) n + x2 (ix2 (1 : Fin 3) (0 : Fin 1)) := by
  rw [val_main_v20_apply, val_main_v15_apply, bias1, Ideal.addf_def]
  congr 1
  unfold Cert.Readout.head
  refine Finset.sum_congr rfl fun c _ => ?_
  rw [show lidx_main_v15 (ix2 n (0 : Fin 1)) c = ix2 n c from funext fun a => Fin.ext (by match a with | ⟨0, _⟩ => rfl | ⟨1, _⟩ => rfl),
    show ridx_main_v15 (ix2 n (0 : Fin 1)) c = ix2 c (0 : Fin 1) from funext fun a => Fin.ext (by match a with | ⟨0, _⟩ => rfl | ⟨1, _⟩ => rfl), feat1, wl1]
  rfl

/-- Row 2 of the head weights as a column, read at channel `c`. -/
theorem wl2 (c : Fin 128) :
    val_main_v24 (F := Ideal) x1 (ix2 c (0 : Fin 1)) = x1 (ix3 (2 : Fin 3) c (0 : Fin 1)) := by
  rw [val_main_v24_apply, val_main_v23_apply]
  refine congrArg x1 (funext fun a => Fin.ext ?_)
  have hc := c.isLt
  match a with
  | ⟨0, _⟩ => rfl
  | ⟨1, _⟩ => show (c.val * 1 + 0) / 1 % 128 = c.val; omega
  | ⟨2, _⟩ => rfl

/-- The bias of head 2, broadcast over the nodes. -/
theorem bias2 (n : Fin 100000) :
    val_main_v29 (F := Ideal) x2 (ix2 n (0 : Fin 1)) = x2 (ix2 (2 : Fin 3) (0 : Fin 1)) := by
  rw [val_main_v29_apply, val_main_v28_apply, val_main_v27_apply, val_main_v26_apply]
  exact congrArg x2 (funext fun a => Fin.ext (by match a with | ⟨0, _⟩ => rfl | ⟨1, _⟩ => rfl))

/-- Head 2 of node `n` with its bias. -/
theorem head2 (n : Fin 100000) :
    val_main_v30 (F := Ideal) x0 x1 x2 (ix2 n (0 : Fin 1))
      = Cert.Readout.head x0 x1 (2 : Fin 3) n + x2 (ix2 (2 : Fin 3) (0 : Fin 1)) := by
  rw [val_main_v30_apply, val_main_v25_apply, bias2, Ideal.addf_def]
  congr 1
  unfold Cert.Readout.head
  refine Finset.sum_congr rfl fun c _ => ?_
  rw [show lidx_main_v25 (ix2 n (0 : Fin 1)) c = ix2 n c from funext fun a => Fin.ext (by match a with | ⟨0, _⟩ => rfl | ⟨1, _⟩ => rfl),
    show ridx_main_v25 (ix2 n (0 : Fin 1)) c = ix2 c (0 : Fin 1) from funext fun a => Fin.ext (by match a with | ⟨0, _⟩ => rfl | ⟨1, _⟩ => rfl), feat2, wl2]
  rfl

/-- The hidden layer before its activation. -/
theorem hidden_eq (n : Fin 100000) (h : Fin 64) :
    val_main_v40 (F := Ideal) x0 x3 x4 (ix2 n h) = Cert.Readout.hidden x0 x3 x4 h n := by
  rw [val_main_v40_apply, val_main_v37_apply, val_main_v39_apply, val_main_v38_apply, Ideal.addf_def]
  unfold Cert.Readout.hidden
  congr 1
  · refine Finset.sum_congr rfl fun c _ => ?_
    rw [show lidx_main_v37 (ix2 n h) c = ix2 n c from funext fun a => Fin.ext (by match a with | ⟨0, _⟩ => rfl | ⟨1, _⟩ => rfl),
      show ridx_main_v37 (ix2 n h) c = ix2 c h from funext fun a => Fin.ext (by match a with | ⟨0, _⟩ => rfl | ⟨1, _⟩ => rfl), feat3]
  · exact congrArg x4 (funext fun a => Fin.ext (by match a with | ⟨0, _⟩ => rfl))

/-- The quotient `1 / (1 + e⁻ˣ)`, spelt out by the program, is the logistic function of the hidden unit. -/
theorem logistic_eq (n : Fin 100000) (h : Fin 64) :
    val_main_v46 (F := Ideal) x0 x3 x4 (ix2 n h) = Ideal.logistic (val_main_v40 (F := Ideal) x0 x3 x4 (ix2 n h)) := by
  rw [val_main_v46_apply, val_main_v45_apply, val_main_cst_0_apply, val_main_v44_apply, val_main_v43_apply,
    val_main_cst_apply, val_main_v42_apply, val_main_v41_apply]
  simp only [Ideal.ofBits_def, Ideal.ofBits_one_f32, Ideal.hostDivf_def, Ideal.addf_def, Ideal.hostUnary_exp_def,
    Ideal.hostNegf_def, Ideal.negf_def]
  rfl

/-- The perceptron's output for node `n` with its bias. -/
theorem mlp_eq (n : Fin 100000) :
    val_main_v51 (F := Ideal) x0 x3 x4 x5 x6 (ix2 n (0 : Fin 1))
      = Cert.Readout.mlp x0 x3 x4 x5 n + x6 (ix1 (0 : Fin 1)) := by
  rw [val_main_v51_apply, val_main_v48_apply, val_main_v50_apply, val_main_v49_apply, Ideal.addf_def]
  unfold Cert.Readout.mlp Cert.Readout.silu
  congr 1
  · refine Finset.sum_congr rfl fun h _ => ?_
    rw [show lidx_main_v48 (ix2 n (0 : Fin 1)) h = ix2 n h from funext fun a => Fin.ext (by match a with | ⟨0, _⟩ => rfl | ⟨1, _⟩ => rfl),
      show ridx_main_v48 (ix2 n (0 : Fin 1)) h = ix2 h (0 : Fin 1) from funext fun a => Fin.ext (by match a with | ⟨0, _⟩ => rfl | ⟨1, _⟩ => rfl),
      val_main_v47_apply, logistic_eq, hidden_eq, Ideal.mulf_def]
  · exact congrArg x6 (funext fun a => Fin.ext (by match a with | ⟨0, _⟩ => rfl))

/-- Head 0 as a one-row array. -/
theorem lift_v31 (n : Fin 100000) :
    val_main_v31 (F := Ideal) x0 x1 x2 (ix3 (0 : Fin 1) n (0 : Fin 1)) = val_main_v10 (F := Ideal) x0 x1 x2 (ix2 n (0 : Fin 1)) := by
  rw [val_main_v31_apply]
  exact congrArg _ (funext fun a => Fin.ext (by match a with | ⟨0, _⟩ => rfl | ⟨1, _⟩ => rfl))

/-- Head 1 as a one-row array. -/
theorem lift_v32 (n : Fin 100000) :
    val_main_v32 (F := Ideal) x0 x1 x2 (ix3 (0 : Fin 1) n (0 : Fin 1)) = val_main_v20 (F := Ideal) x0 x1 x2 (ix2 n (0 : Fin 1)) := by
  rw [val_main_v32_apply]
  exact congrArg _ (funext fun a => Fin.ext (by match a with | ⟨0, _⟩ => rfl | ⟨1, _⟩ => rfl))

/-- Head 2 as a one-row array. -/
theorem lift_v33 (n : Fin 100000) :
    val_main_v33 (F := Ideal) x0 x1 x2 (ix3 (0 : Fin 1) n (0 : Fin 1)) = val_main_v30 (F := Ideal) x0 x1 x2 (ix2 n (0 : Fin 1)) := by
  rw [val_main_v33_apply]
  exact congrArg _ (funext fun a => Fin.ext (by match a with | ⟨0, _⟩ => rfl | ⟨1, _⟩ => rfl))

/-- The perceptron's column as a one-row array. -/
theorem lift_v52 (n : Fin 100000) :
    val_main_v52 (F := Ideal) x0 x3 x4 x5 x6 (ix3 (0 : Fin 1) n (0 : Fin 1)) = val_main_v51 (F := Ideal) x0 x3 x4 x5 x6 (ix2 n (0 : Fin 1)) := by
  rw [val_main_v52_apply]
  exact congrArg _ (funext fun a => Fin.ext (by match a with | ⟨0, _⟩ => rfl | ⟨1, _⟩ => rfl))

/-- Row 0 of the three stacked heads is head 0. -/
theorem join3_0 (n : Fin 100000) :
    val_main_v34 (F := Ideal) x0 x1 x2 (ix3 (0 : Fin 3) n (0 : Fin 1))
      = val_main_v31 (F := Ideal) x0 x1 x2 (ix3 (0 : Fin 1) n (0 : Fin 1)) := by
  unfold val_main_v34
  exact concatenate_apply_piece (0 : Fin S3x100000x1.rank) _ _ (ix3 (0 : Fin 3) n (0 : Fin 1)) 0 (by show 0 < 3; decide) S1x100000x1 _ rfl rfl 0 rfl
    (ix3 (0 : Fin 1) n (0 : Fin 1))
    (fun b hb => by match b, hb with | ⟨0, _⟩, hb => exact absurd rfl hb | ⟨1, _⟩, _ => rfl | ⟨2, _⟩, _ => rfl) rfl

/-- Row 1 of the three stacked heads is head 1. -/
theorem join3_1 (n : Fin 100000) :
    val_main_v34 (F := Ideal) x0 x1 x2 (ix3 (1 : Fin 3) n (0 : Fin 1))
      = val_main_v32 (F := Ideal) x0 x1 x2 (ix3 (0 : Fin 1) n (0 : Fin 1)) := by
  unfold val_main_v34
  exact concatenate_apply_piece (0 : Fin S3x100000x1.rank) _ _ (ix3 (1 : Fin 3) n (0 : Fin 1)) 1 (by show 1 < 3; decide) S1x100000x1 _ rfl rfl 1 rfl
    (ix3 (0 : Fin 1) n (0 : Fin 1))
    (fun b hb => by match b, hb with | ⟨0, _⟩, hb => exact absurd rfl hb | ⟨1, _⟩, _ => rfl | ⟨2, _⟩, _ => rfl) rfl

/-- Row 2 of the three stacked heads is head 2. -/
theorem join3_2 (n : Fin 100000) :
    val_main_v34 (F := Ideal) x0 x1 x2 (ix3 (2 : Fin 3) n (0 : Fin 1))
      = val_main_v33 (F := Ideal) x0 x1 x2 (ix3 (0 : Fin 1) n (0 : Fin 1)) := by
  unfold val_main_v34
  exact concatenate_apply_piece (0 : Fin S3x100000x1.rank) _ _ (ix3 (2 : Fin 3) n (0 : Fin 1)) 2 (by show 2 < 3; decide) S1x100000x1 _ rfl rfl 2 rfl
    (ix3 (0 : Fin 1) n (0 : Fin 1))
    (fun b hb => by match b, hb with | ⟨0, _⟩, hb => exact absurd rfl hb | ⟨1, _⟩, _ => rfl | ⟨2, _⟩, _ => rfl) rfl

/-- The first three rows of the four stacked pieces are the three stacked heads. -/
theorem join2_left (k : Fin 3) (n : Fin 100000) :
    val_main_v53 (F := Ideal) x0 x1 x2 x3 x4 x5 x6 (ix3 (Fin.castSucc k) n (0 : Fin 1))
      = val_main_v34 (F := Ideal) x0 x1 x2 (ix3 k n (0 : Fin 1)) := by
  unfold val_main_v53
  exact concatenate_pair_apply_left (t := S4x100000x1) (s₁ := S3x100000x1) (s₂ := S1x100000x1) (0 : Fin S4x100000x1.rank) _ _ _ (ix3 (Fin.castSucc k) n (0 : Fin 1)) rfl (ix3 k n (0 : Fin 1))
    (fun b => by match b with | ⟨0, _⟩ => rfl | ⟨1, _⟩ => rfl | ⟨2, _⟩ => rfl)

/-- The last row of the four stacked pieces is the perceptron's. -/
theorem join2_right (n : Fin 100000) :
    val_main_v53 (F := Ideal) x0 x1 x2 x3 x4 x5 x6 (ix3 (3 : Fin 4) n (0 : Fin 1))
      = val_main_v52 (F := Ideal) x0 x3 x4 x5 x6 (ix3 (0 : Fin 1) n (0 : Fin 1)) := by
  unfold val_main_v53
  exact concatenate_pair_apply_right (t := S4x100000x1) (s₁ := S3x100000x1) (s₂ := S1x100000x1) (0 : Fin S4x100000x1.rank) _ _ _ (ix3 (3 : Fin 4) n (0 : Fin 1)) rfl rfl (ix3 (0 : Fin 1) n (0 : Fin 1))
    (fun b hb => by match b, hb with | ⟨0, _⟩, hb => exact absurd rfl hb | ⟨1, _⟩, _ => rfl | ⟨2, _⟩, _ => rfl) rfl

/-- The sum over the four stacked pieces, from zero, is the readout of node `n`. -/
theorem reduce_eq (n : Fin 100000) :
    val_main_v54 (F := Ideal) x0 x1 x2 x3 x4 x5 x6 (ix2 n (0 : Fin 1)) = Cert.Readout.out x0 x1 x2 x3 x4 x5 x6 n := by
  rw [val_main_v54_apply, val_main_cst_1_apply, Ideal.ofBits_def, Ideal.ofBits_zero_f32, zero_add, Fin.sum_univ_four]
  rw [show idx_main_v54 (ix2 n (0 : Fin 1)) 0 = ix3 (Fin.castSucc (0 : Fin 3)) n (0 : Fin 1) from funext fun a => Fin.ext (by match a with | ⟨0, _⟩ => rfl | ⟨1, _⟩ => rfl | ⟨2, _⟩ => rfl),
    show idx_main_v54 (ix2 n (0 : Fin 1)) 1 = ix3 (Fin.castSucc (1 : Fin 3)) n (0 : Fin 1) from funext fun a => Fin.ext (by match a with | ⟨0, _⟩ => rfl | ⟨1, _⟩ => rfl | ⟨2, _⟩ => rfl),
    show idx_main_v54 (ix2 n (0 : Fin 1)) 2 = ix3 (Fin.castSucc (2 : Fin 3)) n (0 : Fin 1) from funext fun a => Fin.ext (by match a with | ⟨0, _⟩ => rfl | ⟨1, _⟩ => rfl | ⟨2, _⟩ => rfl),
    show idx_main_v54 (ix2 n (0 : Fin 1)) 3 = ix3 (3 : Fin 4) n (0 : Fin 1) from funext fun a => Fin.ext (by match a with | ⟨0, _⟩ => rfl | ⟨1, _⟩ => rfl | ⟨2, _⟩ => rfl)]
  rw [join2_left, join2_left, join2_left, join2_right, join3_0, join3_1, join3_2, lift_v31, lift_v32, lift_v33, lift_v52,
    head0, head1, head2, mlp_eq]
  rfl

/-- The reference program's result is the readout array. -/
theorem ref_is_out :
    val_main_v55 (F := Ideal) x0 x1 x2 x3 x4 x5 x6 = Cert.Readout.outArr x0 x1 x2 x3 x4 x5 x6 := by
  funext i
  obtain ⟨n, rfl⟩ : ∃ n : Fin 100000, i = ix1 n := ⟨i 0, eq_ix1 (n := 100000) i⟩
  rw [val_main_v55_apply,
    show idx_main_v55 (ix1 n) = ix2 n (0 : Fin 1) from
      funext fun a => Fin.ext (by match a with | ⟨0, _⟩ => exact Nat.div_one _ | ⟨1, _⟩ => rfl),
    reduce_eq]
  rfl

end Cert.RefReadout
-- ==== Proof.lean ====
/-
  The proof of `Cert.Claim`: a per-node readout kernel against its jnp reference, on the extended reals.

  Each of 100000 nodes has 128 × 4 features; three linear heads read slots 0, 1, 2 and a two-layer perceptron with a
  `silu` reads slot 3; the readout is the sum of the four with their biases (Proof/Spec.lean). The reference computes
  it head by head. The kernel flattens each node's features to a row of 512, multiplies by one combined weight whose
  zero entries select the slots, and handles 2048 nodes per grid point; the last point's block overhangs the array.

  The five claims. The word-level program's frame and the idealized program's frame are the frame run of
  Proof/BodyK.lean and Proof/BodyI.lean: the body is one whole-block store of a pure function of its loads, and the
  output window's contents need not be named for a frame. The reference's frame is its generated run with the result
  dropped. The idealization rewrote nothing, so there is nothing to preserve. For the algebraic claim the kernel's
  result array is named (Proof/ValueI.lean: rows do not mix, so the words past the array's end at the last point do
  not reach the rows written back; the blocks of the 49 points cover the array), then shown to be the specification
  of the arguments (Proof/Prologue.lean reads the host operations before the region at coordinates, Proof/Algebra.lean
  regroups the sums, Proof/Bridge.lean joins them); the reference's result is the same specification
  (Proof/RefValue.lean). Only commutativity and associativity of addition and `x · 0 = 0` are used, so the
  precondition is never opened.
-/
import proofs.«173019_g88819923681710_cont_sun_c4_88_2_alg».proof.Defs
import proofs.«173019_g88819923681710_cont_sun_c4_88_2_alg».proof.Proof.Gen.Kernel
import proofs.«173019_g88819923681710_cont_sun_c4_88_2_alg».proof.Proof.Gen.KernelIdeal
import proofs.«173019_g88819923681710_cont_sun_c4_88_2_alg».proof.Proof.Gen.ReferenceIdeal
import proofs.«173019_g88819923681710_cont_sun_c4_88_2_alg».proof.Proof.Gen.Pre_finite_inputs
import proofs.«173019_g88819923681710_cont_sun_c4_88_2_alg».proof.Proof.Gen.ReferenceIdeal.Run
import proofs.«173019_g88819923681710_cont_sun_c4_88_2_alg».proof.Proof.Gen.ReferenceIdeal.Read
import proofs.«173019_g88819923681710_cont_sun_c4_88_2_alg».proof.Proof.BodyK
import proofs.«173019_g88819923681710_cont_sun_c4_88_2_alg».proof.Proof.BodyI
import proofs.«173019_g88819923681710_cont_sun_c4_88_2_alg».proof.Proof.ValueI
import proofs.«173019_g88819923681710_cont_sun_c4_88_2_alg».proof.Proof.Bridge
import proofs.«173019_g88819923681710_cont_sun_c4_88_2_alg».proof.Proof.RefValue
import Idealize.ShloMosaic.Adequacy
import Idealize.ShloMosaic.Init

noncomputable section

namespace Cert.Proof

open Idealize.ShloMosaic Idealize.SL.Sem

/-- The word-level program runs to the end without a fault and leaves its arguments unchanged. -/
theorem frame_k : Cert.frame_Kernel (hKernel := Cert.Kernel.Gen.facts) (hPre_finite_inputs := Cert.Pre_finite_inputs.Gen.facts) :=
  fun m ρ _ => Cert.Kernel.Body.frame (F := Bits) m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- And the reference: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the readout of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.G m c, Cert.KernelIdeal.Value.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.RefReadout.ref_is_out, (hagree c).1, (hagree c).2.1, (hagree c).2.2.1,
    (hagree c).2.2.2.1, (hagree c).2.2.2.2.1, (hagree c).2.2.2.2.2.1, (hagree c).2.2.2.2.2.2]
  exact (Cert.KernelIdeal.Bridge.G_eq_out m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
